-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S2x6400000 : Shape := ⟨2, ![2, 6400000]⟩
abbrev S512x8 : Shape := ⟨2, ![512, 8]⟩
abbrev S8 : Shape := ⟨1, ![8]⟩
abbrev S8x3 : Shape := ⟨2, ![8, 3]⟩
abbrev S3 : Shape := ⟨1, ![3]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S200000x512 .f32) (main_arg1 : IVec S2x6400000 32) (main_arg2 : FVec F S512x8 .f32) (main_arg3 : FVec F S8 .f32) (main_arg4 : FVec F S8x3 .f32) (main_arg5 : FVec F S3 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x8 .f32 := Host.absf main_arg2
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x3 .f32 := Host.absf main_arg4
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg5 main_v13 main_v16
-- ==== Kernel.lean ====
abbrev S200000x512 : Shape := ⟨2, ![200000, 512]⟩
abbrev S2x6400000 : Shape := ⟨2, ![2, 6400000]⟩
abbrev S512x8 : Shape := ⟨2, ![512, 8]⟩
abbrev S8 : Shape := ⟨1, ![8]⟩
abbrev S8x3 : Shape := ⟨2, ![8, 3]⟩
abbrev S3 : Shape := ⟨1, ![3]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S2000x512 : Shape := ⟨2, ![2000, 512]⟩
abbrev S2000x8 : Shape := ⟨2, ![2000, 8]⟩
abbrev S6600000x8 : Shape := ⟨2, ![6600000, 8]⟩
abbrev S1x8 : Shape := ⟨2, ![1, 8]⟩
abbrev S4000x8 : Shape := ⟨2, ![4000, 8]⟩
abbrev S200000x3 : Shape := ⟨2, ![200000, 3]⟩
abbrev S4000x3 : Shape := ⟨2, ![4000, 3]⟩
abbrev S6600000x3 : Shape := ⟨2, ![6600000, 3]⟩
abbrev S1x3 : Shape := ⟨2, ![1, 3]⟩
abbrev S2000x3 : Shape := ⟨2, ![2000, 3]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S200000x512, .f32⟩
  | .hbm, ⟨1, _⟩ => ⟨S2x6400000, .i32⟩
  | .hbm, ⟨2, _⟩ => ⟨S512x8, .f32⟩
  | .hbm, ⟨3, _⟩ => ⟨S8, .f32⟩
  | .hbm, ⟨4, _⟩ => ⟨S8x3, .f32⟩
  | .hbm, ⟨5, _⟩ => ⟨S3, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x8, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x3, .f32⟩
  | .hbm, ⟨66, _⟩ => ⟨S_, .i32⟩
  | .hbm, ⟨67, _⟩ => ⟨S6600000, .i32⟩
  | .hbm, ⟨68, _⟩ => ⟨S6600000, .i1⟩
  | .hbm, ⟨69, _⟩ => ⟨S_, .i32⟩
  | .hbm, ⟨70, _⟩ => ⟨S6600000, .i32⟩
  | .hbm, ⟨71, _⟩ => ⟨S6600000, .i32⟩
  | .hbm, ⟨72, _⟩ => ⟨S6600000, .i32⟩
  | .hbm, ⟨73, _⟩ => ⟨S6600000x1, .i32⟩
  | .hbm, ⟨74, _⟩ => ⟨S6600000x3, .f32⟩
  | .hbm, ⟨75, _⟩ => ⟨S6600000x1, .f32⟩
  | .hbm, ⟨76, _⟩ => ⟨S6600000x3, .f32⟩
  | .hbm, ⟨77, _⟩ => ⟨S6600000x3, .f32⟩
  | .hbm, ⟨78, _⟩ => ⟨S_, .f32⟩
  | .hbm, ⟨79, _⟩ => ⟨S200000x3, .f32⟩
  | .hbm, ⟨80, _⟩ => ⟨S6600000x1, .i32⟩
  | .hbm, ⟨81, _⟩ => ⟨S200000x3, .f32⟩
  | .hbm, ⟨82, _⟩ => ⟨S1x3, .f32⟩
  | .hbm, ⟨83, _⟩ => ⟨S200000x3, .f32⟩
  | .local _ .vmem, ⟨0, _⟩ => ⟨S2000x512, .f32⟩
  | .local _ .vmem, ⟨1, _⟩ => ⟨S2000x512, .f32⟩
  | .local _ .vmem, ⟨2, _⟩ => ⟨S512x8, .f32⟩
  | .local _ .vmem, ⟨3, _⟩ => ⟨S2000x8, .f32⟩
  | .local _ .vmem, ⟨4, _⟩ => ⟨S2000x8, .f32⟩
  | .local _ .vmem, ⟨5, _⟩ => ⟨S4000x8, .f32⟩
  | .local _ .vmem, ⟨6, _⟩ => ⟨S4000x8, .f32⟩
  | .local _ .vmem, ⟨7, _⟩ => ⟨S1x8, .f32⟩
  | .local _ .vmem, ⟨8, _⟩ => ⟨S4000x8, .f32⟩
  | .local _ .vmem, ⟨9, _⟩ => ⟨S4000x8, .f32⟩
  | .local _ .vmem, ⟨10, _⟩ => ⟨S4000x8, .f32⟩
  | .local _ .vmem, ⟨11, _⟩ => ⟨S4000x8, .f32⟩
  | .local _ .vmem, ⟨12, _⟩ => ⟨S8x3, .f32⟩
  | .local _ .vmem, ⟨13, _⟩ => ⟨S4000x3, .f32⟩
  | .local _ .vmem, ⟨14, _⟩ => ⟨S4000x3, .f32⟩
  | .local _ .vmem, ⟨15, _⟩ => ⟨S2000x3, .f32⟩
  | .local _ .vmem, ⟨16, _⟩ => ⟨S2000x3, .f32⟩
  | .local _ .vmem, ⟨17, _⟩ => ⟨S1x3, .f32⟩
  | .local _ .vmem, ⟨18, _⟩ => ⟨S2000x3, .f32⟩
  | .local _ .vmem, ⟨19, _⟩ => ⟨S2000x3, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S2000x8_S2000x8_0_0 : ∀ a, (![0, 0] : Fin 2 → Nat) a + S2000x8.size a ≤ S2000x8.size a
  h_S2000x8 : 0 < S2000x8.numel
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  shapeCasts_S8_S1x8 : S8.ShapeCasts S1x8
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  inb_S8x3_S8x3_0_0 : ∀ a, (![0, 0] : Fin 2 → Nat) a + S8x3.size a ≤ S8x3.size a
  h_S8x3 : 0 < S8x3.numel
  inb_S4000x3_S4000x3_0_0 : ∀ a, (![0, 0] : Fin 2 → Nat) a + S4000x3.size a ≤ S4000x3.size a
  h_S4000x3 : 0 < S4000x3.numel
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  shapeCasts_S3_S1x3 : S3.ShapeCasts S1x3
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  reduces_S2000x3_S2000 : S2000x3.Reduces [1] S2000
  shapeCasts_S2000_S2000x1 : S2000.ShapeCasts S2000x1
  broadcasts_S2000x1_S2000x3 : S2000x1.Broadcasts S2000x3
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S2000x512_S512x8_S2000x8_1_0_0_1_n_n_wf : DotDims.WF S2000x512 S512x8 S2000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S4000x8_S8x3_S4000x3_1_0_0_1_n_n_wf : DotDims.WF S4000x8 S8x3 S4000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S200000x8.size a
  hwx0_2 : ∀ i : grid0.Coords, EltTy.bits .f32 = 32 ∨ (Rect.block (s := S200000x8) S2000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x8.size a ≤ S200000x8.size a
  hwx1_0 : ∀ i : grid1.Coords, EltTy.bits .f32 = 32 ∨ (Rect.block (s := S200000x8) S4000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x8.size a ≤ S200000x8.size a
  hwx1_2 : ∀ i : grid1.Coords, EltTy.bits .f32 = 32 ∨ (Rect.block (s := S200000x8) S4000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S200000x8.size a
  hwx2_0 : ∀ i : grid2.Coords, EltTy.bits .f32 = 32 ∨ (Rect.block (s := S200000x8) S4000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x3.size a ≤ S8x3.size a
  hwx2_1 : ∀ i : grid2.Coords, EltTy.bits .f32 = 32 ∨ (Rect.block (s := S8x3) S8x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x3.size a ≤ S200000x3.size a
  hwx2_2 : ∀ i : grid2.Coords, EltTy.bits .f32 = 32 ∨ (Rect.block (s := S200000x3) S4000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x3.size a ≤ S200000x3.size a
  hwx3_0 : ∀ i : grid3.Coords, EltTy.bits .f32 = 32 ∨ (Rect.block (s := S200000x3) S2000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x3.size a ≤ S200000x3.size a
  hwx3_2 : ∀ i : grid3.Coords, EltTy.bits .f32 = 32 ∨ (Rect.block (s := S200000x3) S2000x3.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S2000x512_S512x8_S2000x8_1_0_0_1_n_n : DotDims S2000x512 S512x8 S2000x8 where
  lhsContracting := [1]
  rhsContracting := [0]
  lhsNonContracting := [0]
  rhsNonContracting := [1]
  lhsBatch := []
  rhsBatch := []
  wf := dot_S2000x512_S512x8_S2000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S4000x8_S8x3_S4000x3_1_0_0_1_n_n : DotDims S4000x8 S8x3 S4000x3 where
  lhsContracting := [1]
  rhsContracting := [0]
  lhsNonContracting := [0]
  rhsNonContracting := [1]
  lhsBatch := []
  rhsBatch := []
  wf := dot_S4000x8_S8x3_S4000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S8x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x512 : Shape := ⟨2, ![200000, 512]⟩
abbrev S2x6400000 : Shape := ⟨2, ![2, 6400000]⟩
abbrev S512x8 : Shape := ⟨2, ![512, 8]⟩
abbrev S8 : Shape := ⟨1, ![8]⟩
abbrev S8x3 : Shape := ⟨2, ![8, 3]⟩
abbrev S3 : Shape := ⟨1, ![3]⟩
abbrev S200000x8 : Shape := ⟨2, ![200000, 8]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S6600000x8 : Shape := ⟨2, ![6600000, 8]⟩
abbrev S1x8 : Shape := ⟨2, ![1, 8]⟩
abbrev S200000x3 : Shape := ⟨2, ![200000, 3]⟩
abbrev S6600000x3 : Shape := ⟨2, ![6600000, 3]⟩
abbrev S1x3 : Shape := ⟨2, ![1, 3]⟩
abbrev S200000x1 : Shape := ⟨2, ![200000, 1]⟩

abbrev nBuf : Space → Nat
  | .hbm => 144
  | .vmem => 0
  | .smem => 0
  | _ => 0

abbrev hbmTy0_0 (i : Nat) : BufTy := match i % 128 with
  | 0 => ⟨S200000x512, .f32⟩
  | 1 => ⟨S2x6400000, .i32⟩
  | 2 => ⟨S512x8, .f32⟩
  | 3 => ⟨S8, .f32⟩
  | 4 => ⟨S8x3, .f32⟩
  | 5 => ⟨S3, .f32⟩
  | 6 => ⟨S200000x8, .f32⟩
  | 7 => ⟨S200000, .i32⟩
  | 8 => ⟨S1x6400000, .i32⟩
  | 9 => ⟨S6400000, .i32⟩
  | 10 => ⟨S6600000, .i32⟩
  | 11 => ⟨S1x6400000, .i32⟩
  | 12 => ⟨S6400000, .i32⟩
  | 13 => ⟨S6600000, .i32⟩
  | 14 => ⟨S_, .f32⟩
  | 15 => ⟨S6600000, .f32⟩
  | 16 => ⟨S_, .f32⟩
  | 17 => ⟨S200000, .f32⟩
  | 18 => ⟨S6600000x1, .i32⟩
  | 19 => ⟨S200000, .f32⟩
  | 20 => ⟨S_, .f32⟩
  | 21 => ⟨S200000, .f32⟩
  | 22 => ⟨S200000, .i1⟩
  | 23 => ⟨S200000, .f32⟩
  | 24 => ⟨S_, .f32⟩
  | 25 => ⟨S_, .f32⟩
  | 26 => ⟨S200000, .f32⟩
  | 27 => ⟨S200000, .f32⟩
  | 28 => ⟨S_, .i32⟩
  | 29 => ⟨S6600000, .i32⟩
  | 30 => ⟨S6600000, .i1⟩
  | 31 => ⟨S_, .i32⟩
  | 32 => ⟨S6600000, .i32⟩
  | 33 => ⟨S6600000, .i32⟩
  | 34 => ⟨S6600000, .i32⟩
  | 35 => ⟨S6600000x1, .i32⟩
  | 36 => ⟨S6600000, .f32⟩
  | 37 => ⟨S_, .i32⟩
  | 38 => ⟨S6600000, .i32⟩
  | 39 => ⟨S6600000, .i1⟩
  | 40 => ⟨S_, .i32⟩
  | 41 => ⟨S6600000, .i32⟩
  | 42 => ⟨S6600000, .i32⟩
  | 43 => ⟨S6600000, .i32⟩
  | 44 => ⟨S6600000x1, .i32⟩
  | 45 => ⟨S6600000, .f32⟩
  | 46 => ⟨S6600000, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x8, .f32⟩
  | 56 => ⟨S6600000x1, .f32⟩
  | 57 => ⟨S6600000x8, .f32⟩
  | 58 => ⟨S6600000x8, .f32⟩
  | 59 => ⟨S_, .f32⟩
  | 60 => ⟨S200000x8, .f32⟩
  | 61 => ⟨S6600000x1, .i32⟩
  | 62 => ⟨S200000x8, .f32⟩
  | 63 => ⟨S1x8, .f32⟩
  | 64 => ⟨S200000x8, .f32⟩
  | 65 => ⟨S200000x8, .f32⟩
  | 66 => ⟨S_, .f32⟩
  | 67 => ⟨S200000x8, .f32⟩
  | 68 => ⟨S200000x8, .f32⟩
  | 69 => ⟨S200000x3, .f32⟩
  | 70 => ⟨S200000, .i32⟩
  | 71 => ⟨S1x6400000, .i32⟩
  | 72 => ⟨S6400000, .i32⟩
  | 73 => ⟨S6600000, .i32⟩
  | 74 => ⟨S1x6400000, .i32⟩
  | 75 => ⟨S6400000, .i32⟩
  | 76 => ⟨S6600000, .i32⟩
  | 77 => ⟨S_, .f32⟩
  | 78 => ⟨S6600000, .f32⟩
  | 79 => ⟨S_, .f32⟩
  | 80 => ⟨S200000, .f32⟩
  | 81 => ⟨S6600000x1, .i32⟩
  | 82 => ⟨S200000, .f32⟩
  | 83 => ⟨S_, .f32⟩
  | 84 => ⟨S200000, .f32⟩
  | 85 => ⟨S200000, .i1⟩
  | 86 => ⟨S200000, .f32⟩
  | 87 => ⟨S_, .f32⟩
  | 88 => ⟨S_, .f32⟩
  | 89 => ⟨S200000, .f32⟩
  | 90 => ⟨S200000, .f32⟩
  | 91 => ⟨S_, .i32⟩
  | 92 => ⟨S6600000, .i32⟩
  | 93 => ⟨S6600000, .i1⟩
  | 94 => ⟨S_, .i32⟩
  | 95 => ⟨S6600000, .i32⟩
  | 96 => ⟨S6600000, .i32⟩
  | 97 => ⟨S6600000, .i32⟩
  | 98 => ⟨S6600000x1, .i32⟩
  | 99 => ⟨S6600000, .f32⟩
  | 100 => ⟨S_, .i32⟩
  | 101 => ⟨S6600000, .i32⟩
  | 102 => ⟨S6600000, .i1⟩
  | 103 => ⟨S_, .i32⟩
  | 104 => ⟨S6600000, .i32⟩
  | 105 => ⟨S6600000, .i32⟩
  | 106 => ⟨S6600000, .i32⟩
  | 107 => ⟨S6600000x1, .i32⟩
  | 108 => ⟨S6600000, .f32⟩
  | 109 => ⟨S6600000, .f32⟩
  | 110 => ⟨S_, .i32⟩
  | 111 => ⟨S6600000, .i32⟩
  | 112 => ⟨S6600000, .i1⟩
  | 113 => ⟨S_, .i32⟩
  | 114 => ⟨S6600000, .i32⟩
  | 115 => ⟨S6600000, .i32⟩
  | 116 => ⟨S6600000, .i32⟩
  | 117 => ⟨S6600000x1, .i32⟩
  | 118 => ⟨S6600000x3, .f32⟩
  | 119 => ⟨S6600000x1, .f32⟩
  | 120 => ⟨S6600000x3, .f32⟩
  | 121 => ⟨S6600000x3, .f32⟩
  | 122 => ⟨S_, .f32⟩
  | 123 => ⟨S200000x3, .f32⟩
  | 124 => ⟨S6600000x1, .i32⟩
  | 125 => ⟨S200000x3, .f32⟩
  | 126 => ⟨S1x3, .f32⟩
  | 127 => ⟨S200000x3, .f32⟩
  | _ => ⟨S200000x512, .f32⟩

abbrev hbmTy0_1 (i : Nat) : BufTy := match i % 128 with
  | 0 => ⟨S200000x3, .f32⟩
  | 1 => ⟨S_, .f32⟩
  | 2 => ⟨S200000, .f32⟩
  | 3 => ⟨S_, .f32⟩
  | 4 => ⟨S200000, .f32⟩
  | 5 => ⟨S200000, .f32⟩
  | 6 => ⟨S200000x1, .f32⟩
  | 7 => ⟨S200000x3, .f32⟩
  | 8 => ⟨S200000x3, .f32⟩
  | 9 => ⟨S200000x3, .f32⟩
  | 10 => ⟨S_, .f32⟩
  | 11 => ⟨S200000, .f32⟩
  | 12 => ⟨S200000x1, .f32⟩
  | 13 => ⟨S200000x1, .f32⟩
  | 14 => ⟨S200000x3, .f32⟩
  | 15 => ⟨S200000x3, .f32⟩
  | _ => ⟨S200000x512, .f32⟩

abbrev hbmTy (i : Nat) : BufTy := match i / 128 with
  | 0 => hbmTy0_0 i
  | 1 => hbmTy0_1 i
  | _ => ⟨S200000x512, .f32⟩

abbrev bufTy : (tb : Table) → Fin (tcTables nBuf tb) → BufTy
  | .hbm, ⟨i, _⟩ => hbmTy i
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  reducesTo_S200000x3_S200000_d1 : S200000x3.ReducesTo [1] S200000
  h_S_ : 0 < S_.numel
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  dot_S200000x512_S512x8_S200000x8_1_0_0_1_n_n_wf : DotDims.WF S200000x512 S512x8 S200000x8 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x3_S200000x3_1_0_0_1_n_n_wf : DotDims.WF S200000x8 S8x3 S200000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1

variable [Facts₀]

def dot_S200000x512_S512x8_S200000x8_1_0_0_1_n_n : DotDims S200000x512 S512x8 S200000x8 where
  lhsContracting := [1]
  rhsContracting := [0]
  lhsNonContracting := [0]
  rhsNonContracting := [1]
  lhsBatch := []
  rhsBatch := []
  wf := dot_S200000x512_S512x8_S200000x8_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x3_S200000x3_1_0_0_1_n_n : DotDims S200000x8 S8x3 S200000x3 where
  lhsContracting := [1]
  rhsContracting := [0]
  lhsNonContracting := [0]
  rhsNonContracting := [1]
  lhsBatch := []
  rhsBatch := []
  wf := dot_S200000x8_S8x3_S200000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

class Facts : Prop extends Facts₀ where

variable [Facts]
-- ==== Proof.KernelRun.lean ====
/-
  The idealized kernel's run with its result named.

  @main is nine segments: three stretches of host operations (the edge lists with the self loops appended, the
  degrees, their inverse square roots, the per-edge normalisation), the first matrix product, the first
  neighbourhood sum, the bias-and-rectifier region, the second matrix product, the second neighbourhood sum, and
  the bias-and-log-softmax region. The generated frame already folds the buffer contents through these segments
  (`Gen.W0` … `Gen.W9`) and proves that every unscoped buffer ends at `Gen.W9`; it keeps only the six argument
  arrays in its post. Here the same run is stated with the result buffer kept as well: it ends holding
  `Gen.W9 m ρ c` at the result's reference, which the value modules then read back region by region.
-/
import proofs.«169985_j32169305047308_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run's strongest post: every weakly fair execution terminates without a fault, and any property of the final
    memory that follows from "every unscoped buffer of every core holds the last segment boundary's contents" holds
    of it. (The launch over the nine segments; the last thread state read against the final state.) -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The result buffer ends at the last boundary's contents, and the six argument arrays end as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_all m ρ fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩

end Cert.KernelIdeal.Named

end
-- ==== Proof.Chain.lean ====
/-
  The host operations the two programs share, named once.

  Both programs build, from the edge list `e` (two rows of 6400000 node numbers), the source and target lists with the
  200000 self loops appended; the target degrees (a sum of ones scattered by target); their inverse square roots
  where the degree is positive and zero elsewhere; the per-edge weight, the product of the two endpoints' inverse
  square roots; and, for a node-feature matrix `h`, the neighbourhood sum: gather `h`'s rows by source, scale each by
  its edge's weight, and scatter-add them by target into zeros. A node number below zero is first wrapped by the
  node count, as array indexing does. None of this is ever opened in the proof: the two programs apply these very
  operations, so it is enough to name them and to show that each program's buffers hold these terms.
-/
import proofs.«169985_j32169305047308_1_alg».proof.Proof.Gen.ReferenceIdeal

noncomputable section

namespace Cert.GcnChain

open Idealize.ShloMosaic Cert.ReferenceIdeal Cert.ReferenceIdeal.Gen

variable {F : FTy → Type} [FloatOps F]

/-- Row `k` of the edge list as a vector, followed by the node numbers 0 … 199999 (the self loops). -/
def ends (k : Nat) (sl : S2x6400000.Slices ![k, 0] S1x6400000) (e : (⟨S2x6400000, .i32⟩ : BufTy).Contents (Elt F)) :
    (⟨S6600000, .i32⟩ : BufTy).Contents (Elt F) :=
  concatenate S6600000 0 [⟨S6400000, shapeCast S6400000 (extractStridedSlice S1x6400000 ![k, 0] e sl) shapeCasts_S1x6400000_S6400000⟩,
    ⟨S200000, iotaInDim S200000 32 0⟩] concatenates_S6400000_S200000_S6600000_d0

/-- The sources: row 0 of the edge list and the self loops. -/
def src (e : (⟨S2x6400000, .i32⟩ : BufTy).Contents (Elt F)) : (⟨S6600000, .i32⟩ : BufTy).Contents (Elt F) :=
  ends 0 slices_S2x6400000_S1x6400000_0_0 e

/-- The targets: row 1 of the edge list and the self loops. -/
def dst (e : (⟨S2x6400000, .i32⟩ : BufTy).Contents (Elt F)) : (⟨S6600000, .i32⟩ : BufTy).Contents (Elt F) :=
  ends 1 slices_S2x6400000_S1x6400000_1_0 e

/-- A list of node numbers as a gather's index column: a negative number wrapped by the node count. -/
def wrap (r : (⟨S6600000, .i32⟩ : BufTy).Contents (Elt F)) : (⟨S6600000x1, .i32⟩ : BufTy).Contents (Elt F) :=
  broadcastInDim S6600000x1 ![0] bcast_S6600000_S6600000x1_0
    (select (cmpi .slt r (broadcastInDim S6600000 ![] bcast_S_S6600000 (constantI S_ 32 0#32)))
      (addi r (broadcastInDim S6600000 ![] bcast_S_S6600000 (constantI S_ 32 200000#32))) r)

/-- The degree of every node: ones scattered by target and added into zeros. -/
def deg (d : (⟨S6600000, .i32⟩ : BufTy).Contents (Elt F)) : (⟨S200000, .f32⟩ : BufTy).Contents (Elt F) :=
  Host.scatterAdd scatter_S200000_S6600000x1_S6600000_n_0_0_1
    (broadcastInDim S200000 ![] bcast_S_S200000 (constant S_ .f32 0x00000000#32))
    (broadcastInDim S6600000x1 ![0] bcast_S6600000_S6600000x1_0 d)
    (broadcastInDim S6600000 ![] bcast_S_S6600000 (constant S_ .f32 0x3F800000#32))

/-- The inverse square root of the degree where it is positive, zero elsewhere. -/
def dinv (d : (⟨S6600000, .i32⟩ : BufTy).Contents (Elt F)) : (⟨S200000, .f32⟩ : BufTy).Contents (Elt F) :=
  select (cmpf (F := F) .ogt (deg d) (broadcastInDim S200000 ![] bcast_S_S200000 (constant S_ .f32 0x00000000#32)))
    (Host.rsqrt (deg d))
    (broadcastInDim S200000 ![] bcast_S_S200000 (constant S_ .f32 0x00000000#32))

/-- The weight of every edge: the product of its two endpoints' inverse square roots. -/
def weight (s d : (⟨S6600000, .i32⟩ : BufTy).Contents (Elt F)) : (⟨S6600000, .f32⟩ : BufTy).Contents (Elt F) :=
  mulf (Host.gather gather_S200000_S6600000x1_S6600000_n_0_n_n_0_1_1 (dinv d) (wrap s))
    (Host.gather gather_S200000_S6600000x1_S6600000_n_0_n_n_0_1_1 (dinv d) (wrap d))

/-- The neighbourhood sum of an 8-column feature matrix: rows gathered by source, scaled by the edge weights, added by
    target into zeros. -/
def sum8 (h : (⟨S200000x8, .f32⟩ : BufTy).Contents (Elt F)) (s d : (⟨S6600000, .i32⟩ : BufTy).Contents (Elt F))
    (w : (⟨S6600000, .f32⟩ : BufTy).Contents (Elt F)) : (⟨S200000x8, .f32⟩ : BufTy).Contents (Elt F) :=
  Host.scatterAdd scatter_S200000x8_S6600000x1_S6600000x8_1_0_0_1
    (broadcastInDim S200000x8 ![] bcast_S_S200000x8 (constant S_ .f32 0x00000000#32))
    (broadcastInDim S6600000x1 ![0] bcast_S6600000_S6600000x1_0 d)
    (mulf (Host.gather gather_S200000x8_S6600000x1_S6600000x8_1_0_n_n_0_1_18 h (wrap s))
      (broadcastInDim S6600000x8 ![0, 1] bcast_S6600000x1_S6600000x8_0_1
        (broadcastInDim S6600000x1 ![0] bcast_S6600000_S6600000x1_0 w)))

/-- The same for a 3-column feature matrix. -/
def sum3 (h : (⟨S200000x3, .f32⟩ : BufTy).Contents (Elt F)) (s d : (⟨S6600000, .i32⟩ : BufTy).Contents (Elt F))
    (w : (⟨S6600000, .f32⟩ : BufTy).Contents (Elt F)) : (⟨S200000x3, .f32⟩ : BufTy).Contents (Elt F) :=
  Host.scatterAdd scatter_S200000x3_S6600000x1_S6600000x3_1_0_0_1
    (broadcastInDim S200000x3 ![] bcast_S_S200000x3 (constant S_ .f32 0x00000000#32))
    (broadcastInDim S6600000x1 ![0] bcast_S6600000_S6600000x1_0 d)
    (mulf (Host.gather gather_S200000x3_S6600000x1_S6600000x3_1_0_n_n_0_1_13 h (wrap s))
      (broadcastInDim S6600000x3 ![0, 1] bcast_S6600000x1_S6600000x3_0_1
        (broadcastInDim S6600000x1 ![0] bcast_S6600000_S6600000x1_0 w)))

end Cert.GcnChain

end
-- ==== Proof.KernelHost.lean ====
/-
  What the kernel program's host stretches leave in the buffers later stages read.

  Between the regions the kernel program runs the same host operations as the reference: before the first region the
  edge lists with the self loops, the degrees, their inverse square roots and the edge weights (computed once, used by
  both layers); after the first matrix product the first neighbourhood sum and the bias reshaped to a row; after the
  second matrix product the second neighbourhood sum and the second bias reshaped to a row. Each stretch is read here
  from arbitrary entry contents `W`, for any float instance: the buffer it computes holds the shared chain's term of
  what `W` holds at the buffers it reads, and a buffer it does not write keeps what `W` holds there.
-/
import proofs.«169985_j32169305047308_1_alg».proof.Proof.Gen.KernelIdeal.Launch
import proofs.«169985_j32169305047308_1_alg».proof.Proof.Chain
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen Cert.GcnChain

variable {F : FTy → Type} [FloatOps F]

/-! ## Before the first region: edge lists, degrees, weights -/

/-- The sources: row 0 of the edge list with the self loops appended. -/
theorem pre_src (W : Valuation τ sig (Elt F)) :
    StableHlo.after hostOps0_2 (StableHlo.after hostOps0_1 (StableHlo.after hostOps0 W)) (Proc.devRef .tc main_v5) = src (W (Proc.devRef .tc main_arg1)) := by
  simp only [hostOps0, hostOps0_1, hostOps0_2]
  after_results_simp
  rfl

/-- The targets: row 1 of the edge list with the self loops appended. -/
theorem pre_dst (W : Valuation τ sig (Elt F)) :
    StableHlo.after hostOps0_2 (StableHlo.after hostOps0_1 (StableHlo.after hostOps0 W)) (Proc.devRef .tc main_v6) = dst (W (Proc.devRef .tc main_arg1)) := by
  simp only [hostOps0, hostOps0_1, hostOps0_2]
  after_results_simp
  rfl

/-- The edge weights: the product of the two endpoints' inverse square roots of the target degrees. -/
theorem pre_weight (W : Valuation τ sig (Elt F)) :
    StableHlo.after hostOps0_2 (StableHlo.after hostOps0_1 (StableHlo.after hostOps0 W)) (Proc.devRef .tc main_v29)
      = weight (src (W (Proc.devRef .tc main_arg1))) (dst (W (Proc.devRef .tc main_arg1))) := by
  simp only [hostOps0, hostOps0_1, hostOps0_2]
  after_results_simp
  simp only [TRef.toBuf, TRef.ofBuf, cast_eq]
  rfl

/-- None of these operations writes argument 0. -/
theorem pre_arg0 (W : Valuation τ sig (Elt F)) :
    StableHlo.after hostOps0_2 (StableHlo.after hostOps0_1 (StableHlo.after hostOps0 W)) (Proc.devRef .tc main_arg0) = W (Proc.devRef .tc main_arg0) := by
  simp only [hostOps0, hostOps0_1, hostOps0_2]
  after_results_simp

/-- None of these operations writes argument 2. -/
theorem pre_arg2 (W : Valuation τ sig (Elt F)) :
    StableHlo.after hostOps0_2 (StableHlo.after hostOps0_1 (StableHlo.after hostOps0 W)) (Proc.devRef .tc main_arg2) = W (Proc.devRef .tc main_arg2) := by
  simp only [hostOps0, hostOps0_1, hostOps0_2]
  after_results_simp

/-- None of these operations writes argument 3. -/
theorem pre_arg3 (W : Valuation τ sig (Elt F)) :
    StableHlo.after hostOps0_2 (StableHlo.after hostOps0_1 (StableHlo.after hostOps0 W)) (Proc.devRef .tc main_arg3) = W (Proc.devRef .tc main_arg3) := by
  simp only [hostOps0, hostOps0_1, hostOps0_2]
  after_results_simp

/-- None of these operations writes argument 4. -/
theorem pre_arg4 (W : Valuation τ sig (Elt F)) :
    StableHlo.after hostOps0_2 (StableHlo.after hostOps0_1 (StableHlo.after hostOps0 W)) (Proc.devRef .tc main_arg4) = W (Proc.devRef .tc main_arg4) := by
  simp only [hostOps0, hostOps0_1, hostOps0_2]
  after_results_simp

/-- None of these operations writes argument 5. -/
theorem pre_arg5 (W : Valuation τ sig (Elt F)) :
    StableHlo.after hostOps0_2 (StableHlo.after hostOps0_1 (StableHlo.after hostOps0 W)) (Proc.devRef .tc main_arg5) = W (Proc.devRef .tc main_arg5) := by
  simp only [hostOps0, hostOps0_1, hostOps0_2]
  after_results_simp

/-! ## After the first matrix product: the first neighbourhood sum, and the bias as a row -/

/-- The neighbourhood sum of the product, from whatever `W` holds as product, sources, targets and weights. -/
theorem mid_sum8 (W : Valuation τ sig (Elt F)) :
    StableHlo.after hostOps1 W (Proc.devRef .tc main_v43)
      = sum8 (W (Proc.devRef .tc main_v30)) (W (Proc.devRef .tc main_v5)) (W (Proc.devRef .tc main_v6)) (W (Proc.devRef .tc main_v29)) := by
  simp only [hostOps1]
  after_results_simp
  rfl

/-- The first bias, its 8 entries laid out as one row. -/
theorem mid_bias (W : Valuation τ sig (Elt F)) :
    StableHlo.after hostOps1 W (Proc.devRef .tc main_v44) = shapeCast S1x8 (W (Proc.devRef .tc main_arg3)) shapeCasts_S8_S1x8 := by
  simp only [hostOps1]
  after_results_simp
  rfl

/-- This stretch does not write buffer v5. -/
theorem mid_v5 (W : Valuation τ sig (Elt F)) :
    StableHlo.after hostOps1 W (Proc.devRef .tc main_v5) = W (Proc.devRef .tc main_v5) := by
  simp only [hostOps1]
  after_results_simp

/-- This stretch does not write buffer v6. -/
theorem mid_v6 (W : Valuation τ sig (Elt F)) :
    StableHlo.after hostOps1 W (Proc.devRef .tc main_v6) = W (Proc.devRef .tc main_v6) := by
  simp only [hostOps1]
  after_results_simp

/-- This stretch does not write buffer v29. -/
theorem mid_v29 (W : Valuation τ sig (Elt F)) :
    StableHlo.after hostOps1 W (Proc.devRef .tc main_v29) = W (Proc.devRef .tc main_v29) := by
  simp only [hostOps1]
  after_results_simp

/-- This stretch does not write buffer arg4. -/
theorem mid_arg4 (W : Valuation τ sig (Elt F)) :
    StableHlo.after hostOps1 W (Proc.devRef .tc main_arg4) = W (Proc.devRef .tc main_arg4) := by
  simp only [hostOps1]
  after_results_simp

/-- This stretch does not write buffer arg5. -/
theorem mid_arg5 (W : Valuation τ sig (Elt F)) :
    StableHlo.after hostOps1 W (Proc.devRef .tc main_arg5) = W (Proc.devRef .tc main_arg5) := by
  simp only [hostOps1]
  after_results_simp

/-! ## After the second matrix product: the second neighbourhood sum, and the second bias as a row -/

/-- The neighbourhood sum of the second product. -/
theorem post_sum3 (W : Valuation τ sig (Elt F)) :
    StableHlo.after hostOps3 W (Proc.devRef .tc main_v59)
      = sum3 (W (Proc.devRef .tc main_v46)) (W (Proc.devRef .tc main_v5)) (W (Proc.devRef .tc main_v6)) (W (Proc.devRef .tc main_v29)) := by
  simp only [hostOps3]
  after_results_simp
  rfl

/-- The second bias, its 3 entries laid out as one row. -/
theorem post_bias (W : Valuation τ sig (Elt F)) :
    StableHlo.after hostOps3 W (Proc.devRef .tc main_v60) = shapeCast S1x3 (W (Proc.devRef .tc main_arg5)) shapeCasts_S3_S1x3 := by
  simp only [hostOps3]
  after_results_simp
  rfl

end Cert.KernelIdeal.HostStretch

end
-- ==== Proof.Spec.lean ====
/-
  The mathematics both programs compute, stated once over the extended reals, index by index.

  A two-layer graph convolution is: a matrix product, a neighbourhood sum, a bias and a rectifier; then again a
  matrix product, a neighbourhood sum, a bias and a row-wise log-softmax. The neighbourhood sums are the same host
  operations in both programs and are never opened; what the two programs spell differently are the four dense
  pieces below. Each is stated for arrays of any extents; the proofs use them at the literal ones.
-/
import Idealize.ShloMosaic.PureOps.Ideal
import Idealize.ShloMosaic.Lib.ValueIdx

noncomputable section

namespace Cert.GcnSpec

open Idealize.ShloMosaic Idealize.ShloMosaic.ValueIdx

/-- A matrix of `n0` rows and `n1` columns of extended reals. -/
abbrev Mat (n0 n1 : Nat) : Type := (⟨2, ![n0, n1]⟩ : Shape).Idx → EReal

/-- The matrix product: entry `(r, j)` is the sum over `q` of `x (r, q) · w (q, j)`. -/
def matProd {n k p : Nat} (x : Mat n k) (w : Mat k p) : Mat n p :=
  fun i => ∑ q : Fin k, x (ix2 (i 0) q) * w (ix2 q (i 1))

/-- A vector of `p` entries as a one-row matrix. -/
def rowOf {p : Nat} (b : (⟨1, ![p]⟩ : Shape).Idx → EReal) : Mat 1 p :=
  fun j => b (ix1 (j 1))

/-- A one-row matrix added to every row, then the maximum with the constant `zero` (the rectifier's threshold, kept as
    the literal the programs print). -/
def biasRelu {n p : Nat} (zero : EReal) (a : Mat n p) (b : Mat 1 p) : Mat n p :=
  fun i => max (a i + b (ix2 0 (i 1))) zero

/-- A one-row matrix added to every row. -/
def addRow {n p : Nat} (a : Mat n p) (b : Mat 1 p) : Mat n p :=
  fun i => a i + b (ix2 0 (i 1))

/-- The maximum of row `r`, folded from `bot` (the literal the programs start the maximum from). -/
def rowMax {n p : Nat} (bot : EReal) (z : Mat n p) (r : Fin n) : EReal :=
  (Finset.univ : Finset (Fin p)).fold max bot (fun q => z (ix2 r q))

/-- Every entry less its row's maximum. -/
def shifted {n p : Nat} (bot : EReal) (z : Mat n p) : Mat n p :=
  fun i => z i - rowMax bot z (i 0)

/-- The sum over row `r` of the exponentials of the shifted entries. -/
def rowSumExp {n p : Nat} (bot : EReal) (z : Mat n p) (r : Fin n) : EReal :=
  ∑ q : Fin p, Ideal.exp (shifted bot z (ix2 r q))

/-- The row-wise log-softmax of `a` plus the row `b`: the shifted entry less the logarithm of its row's sum of
    exponentials. -/
def logSoftmax {n p : Nat} (bot : EReal) (a : Mat n p) (b : Mat 1 p) : Mat n p :=
  fun i => shifted bot (addRow a b) i - Ideal.log (rowSumExp bot (addRow a b) (i 0))

/-- Folding a maximum from `bot` never goes below `bot`: taking the maximum with `bot` once more changes nothing. -/
theorem max_bot_rowMax {n p : Nat} (bot : EReal) (z : Mat n p) (r : Fin n) :
    max bot (rowMax bot z r) = rowMax bot z r :=
  max_eq_right ((Finset.le_fold_max bot).mpr (Or.inl le_rfl))

end Cert.GcnSpec

end
-- ==== Proof.Region0.lean ====
/-
  The first matrix product, x · W1, as the kernel computes it.

  The region's grid has 100 points; point t stages rows 2000·t … 2000·t + 1999 of x (all 512 columns), the whole
  of W1, and writes back rows 2000·t … 2000·t + 1999 of the product. Inside a point the body narrows both tiles to
  bf16 — the identity on extended reals — and multiplies them into a zero accumulator, so entry (p, j) of the tile
  is the sum over q of x_tile (p, q) · W1 (q, j). Row p of the tile is row 2000·t + p of x, so the written block is
  the corresponding block of the whole product; the 100 blocks tile the 200000 rows, so the array ends holding the
  whole product of the arrays the region entered with.
-/
import proofs.«169985_j32169305047308_1_alg».proof.Proof.Gen.KernelIdeal.Frame
import proofs.«169985_j32169305047308_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

/-! ## The tile product at an index -/

theorem lhs_row (j : S2000x8.Idx) (q : dot_S2000x512_S512x8_S2000x8_1_0_0_1_n_n.contr.Idx) :
    (dot_S2000x512_S512x8_S2000x8_1_0_0_1_n_n.lhsIdx j q 0).val = (j 0).val := by
  unfold DotDims.lhsIdx
  rw [dif_neg (show ¬(0 : Fin S2000x512.rank) ∈ dot_S2000x512_S512x8_S2000x8_1_0_0_1_n_n.lhsBatch by decide),
    dif_pos (show (0 : Fin S2000x512.rank) ∈ dot_S2000x512_S512x8_S2000x8_1_0_0_1_n_n.lhsNonContracting by decide)]
  rfl

theorem rhs_col (j : S2000x8.Idx) (q : dot_S2000x512_S512x8_S2000x8_1_0_0_1_n_n.contr.Idx) :
    (dot_S2000x512_S512x8_S2000x8_1_0_0_1_n_n.rhsIdx j q 1).val = (j 1).val := by
  unfold DotDims.rhsIdx
  rw [dif_neg (show ¬(1 : Fin S512x8.rank) ∈ dot_S2000x512_S512x8_S2000x8_1_0_0_1_n_n.rhsBatch by decide),
    dif_pos (show (1 : Fin S512x8.rank) ∈ dot_S2000x512_S512x8_S2000x8_1_0_0_1_n_n.rhsNonContracting by decide)]
  rfl

/-- Entry `j` of the body's product of two tiles: the sum over the 512 contracted coordinates. (Narrowing to bf16 is
    the identity at the extended reals, and the accumulator is the zero splat.) -/
theorem tile_apply (x0 : FVec Ideal S2000x512 .f32) (x1 : FVec Ideal S512x8 .f32) (j : S2000x8.Idx) :
    k0_pay1 (F := Ideal) x0 x1 j
      = ∑ q : Fin 512, x0 (ix2 ⟨(j 0).val, (j 0).isLt⟩ q) * x1 (ix2 q ⟨(j 1).val, (j 1).isLt⟩) := by
  unfold k0_pay1
  show FloatOps.matmul dot_S2000x512_S512x8_S2000x8_1_0_0_1_n_n none (truncf .bf16 x0 bitsLt_bf16_f32)
      (truncf .bf16 x1 bitsLt_bf16_f32) (constant S2000x8 .f32 0x00000000#32) j = _
  rw [Ideal.matmul_constant_zero_apply,
    ← Equiv.sum_comp (contrEquiv1 dot_S2000x512_S512x8_S2000x8_1_0_0_1_n_n 512 rfl rfl).symm]
  refine Finset.sum_congr rfl fun k _ => ?_
  have hk := contrEquiv1_symm_val dot_S2000x512_S512x8_S2000x8_1_0_0_1_n_n 512 rfl rfl k
  have el : dot_S2000x512_S512x8_S2000x8_1_0_0_1_n_n.lhsIdx j
      ((contrEquiv1 dot_S2000x512_S512x8_S2000x8_1_0_0_1_n_n 512 rfl rfl).symm k)
      = ix2 ⟨(j 0).val, (j 0).isLt⟩ k := funext fun a => Fin.ext (by
    match a with
    | ⟨0, _⟩ => exact lhs_row _ _
    | ⟨1, _⟩ => exact (dot_S2000x512_S512x8_S2000x8_1_0_0_1_n_n.lhsIdx_val_of_single rfl j _).trans hk)
  have er : dot_S2000x512_S512x8_S2000x8_1_0_0_1_n_n.rhsIdx j
      ((contrEquiv1 dot_S2000x512_S512x8_S2000x8_1_0_0_1_n_n 512 rfl rfl).symm k)
      = ix2 k ⟨(j 1).val, (j 1).isLt⟩ := funext fun a => Fin.ext (by
    match a with
    | ⟨0, _⟩ => exact (dot_S2000x512_S512x8_S2000x8_1_0_0_1_n_n.rhsIdx_val_of_single rfl j _).trans hk
    | ⟨1, _⟩ => exact rhs_col _ _)
  show x0 _ * x1 _ = _
  rw [el, er]
  rfl

/-- The same entry, once each tile is known to be a block of a whole matrix: entry `i` of the whole product. -/
theorem tile_block (x0 : FVec Ideal S2000x512 .f32) (x1 : FVec Ideal S512x8 .f32) (X : Mat 200000 512) (W : Mat 512 8)
    (j : S2000x8.Idx) (i : S200000x8.Idx)
    (h0 : ∀ q : Fin 512, x0 (ix2 ⟨(j 0).val, (j 0).isLt⟩ q) = X (ix2 (i 0) q))
    (h1 : ∀ q : Fin 512, x1 (ix2 q ⟨(j 1).val, (j 1).isLt⟩) = W (ix2 q (i 1))) :
    k0_pay1 (F := Ideal) x0 x1 j = matProd X W i := by
  rw [tile_apply]
  unfold matProd
  exact Finset.sum_congr rfl fun q _ => by rw [h0 q, h1 q]

/-! ## From the blocks to the array -/

theorem hz : (![0, 0] : Fin 2 → Nat) = fun _ => 0 := funext fun a => by fin_cases a <;> rfl

/-- The printed index maps over the grid: the row tile of x and the output block move with the point, everything
    else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the arrays the region entered with. -/
theorem flushed_eq (c : Dev nD) (t : Fin cfg0.N) :
    (dat0 (F := Ideal) V c).flushed 2 t
      = ((cfg0.win 2).blk t).view.read (Elt Ideal) (matProd (n := 200000) (k := 512) (p := 8) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x8) hz]
  obtain ⟨e0, e1, e2, e3, e4, e5⟩ := idx_facts t
  funext j
  refine tile_block (iblk0 V c 0 t) (iblk0 V c 1 t) (V c main_arg0) (V c main_arg2) j _ (fun q => ?_) (fun q => ?_)
  · show V c main_arg0 (((cfg0.win 0).blk t).view.emb (ix2 ⟨(j 0).val, (j 0).isLt⟩ q)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * q.val = q.val; omega
  · show V c main_arg2 (((cfg0.win 1).blk t).view.emb (ix2 q ⟨(j 1).val, (j 1).isLt⟩)) = _
    refine congrArg (V c main_arg2) (funext fun a => Fin.ext ?_)
    match a with
    | ⟨0, _⟩ => show win0_1.index t (0 : Fin 2) * 512 + 1 * q.val = q.val; omega
    | ⟨1, _⟩ => show win0_1.index t (1 : Fin 2) * 8 + 1 * (j 1).val = win0_2.index t (1 : Fin 2) * 8 + 1 * (j 1).val; omega

/-- An index of the product array is in point `t`'s block iff each coordinate is in the block's range on its axis. -/
theorem mem_blk (t : Fin cfg0.N) (i : S200000x8.Idx) :
    i ∈ ((cfg0.win 2).blk t).view.set ↔ ∀ a : Fin 2, win0_2.index t a * S2000x8.size a ≤ (i a).val ∧ (i a).val < win0_2.index t a * S2000x8.size a + S2000x8.size a := by
  show i ∈ ((View.whole main_v30).slice (win0_2.rect t)).set ↔ _
  rw [View.set_slice_whole, Rect.mem_set_unit]
  exact Iff.rfl

/-- Row `r` of the product is written by point `r / 2000`. -/
theorem cover (i : S200000x8.Idx) :
    ∃ t : Fin cfg0.N, (cfg0.win 2).flush t = true ∧ i ∈ ((cfg0.win 2).blk t).view.set := by
  have hi0 : (i 0).val < 200000 := (i 0).isLt
  have hi1 : (i 1).val < 8 := (i 1).isLt
  have hN : cfg0.N = 100 := N_0
  have ht : (i 0).val / 2000 < cfg0.N := by rw [hN]; omega
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 8 ≤ (i 1).val ∧ (i 1).val < win0_2.index ⟨(i 0).val / 2000, ht⟩ (1 : Fin 2) * 8 + 8
    rw [e5]; omega

/-- After the region its output array holds the whole product of the two arrays it entered with. -/
theorem final (c : Dev nD) :
    (dat0 (F := Ideal) V c).arrAt 2 cfg0.N = matProd (n := 200000) (k := 512) (p := 8) (V c main_arg0) (V c main_arg2) :=
  (dat0 (F := Ideal) V c).arrAt_eq_of_cover 2 _ (fun t _ => flushed_eq V c t) cover

end Cert.KernelIdeal.Region0

end
-- ==== Proof.Region1.lean ====
/-
  The bias and the rectifier after the first neighbourhood sum, as the kernel computes them.

  The region's grid has 50 points; point t stages rows 4000·t … 4000·t + 3999 of the aggregated array (all 8
  columns) and the whole one-row bias, and writes back the same rows of the output. Inside a point the body copies the
  one bias row down the 4000 rows of the tile, adds it to the tile and takes the maximum with a splat of the literal
  the program prints for zero, so entry (p, l) of the tile is max (agg_tile (p, l) + bias (0, l), zero). Row p of the
  tile is row 4000·t + p of the array and the column is unchanged, so the written block is the corresponding block of
  the whole biased and rectified array; the 50 blocks tile the 200000 rows, so the output array ends holding all of it.
-/
import proofs.«169985_j32169305047308_1_alg».proof.Proof.Gen.KernelIdeal.Frame
import proofs.«169985_j32169305047308_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

/-! ## The tile's entry at an index -/

/-- The one-row tile copied down 4000 rows reads, at `j`, the row's entry in `j`'s column: the row axis of the
    operand has extent one, so its coordinate there is 0; the column axis has extent 8, so its coordinate is `j`'s. -/
theorem bias_row_apply (x1 : FVec Ideal S1x8 .f32) (j : S4000x8.Idx) :
    broadcastTo S4000x8 x1 broadcasts_S1x8_S4000x8 j = x1 (ix2 (0 : Fin 1) ⟨(j 1).val, (j 1).isLt⟩) := by
  refine broadcastTo_apply x1 broadcasts_S1x8_S4000x8 j (ix2 (0 : Fin 1) ⟨(j 1).val, (j 1).isLt⟩) fun ax => ?_
  match ax with
  | ⟨0, _⟩ => rfl
  | ⟨1, _⟩ => rfl

/-- Entry `j` of what the body stores: the tile's entry plus the bias row's entry in the same column, then the maximum
    with the zero literal. (Both shape casts are to the operand's own shape, so they are the identity.) -/
theorem tile_apply (x0 : FVec Ideal S4000x8 .f32) (x1 : FVec Ideal S1x8 .f32) (j : S4000x8.Idx) :
    k1_pay1 (F := Ideal) x0 x1 j
      = max (x0 j + x1 (ix2 (0 : Fin 1) ⟨(j 1).val, (j 1).isLt⟩)) (Ideal.ofBits .f32 0x00000000#32) := by
  unfold k1_pay1
  show maximumf (addf (shapeCast S4000x8 x0 shapeCasts_S4000x8_S4000x8)
      (broadcastTo S4000x8 (shapeCast S1x8 x1 shapeCasts_S1x8_S1x8) broadcasts_S1x8_S4000x8))
      (broadcast S4000x8 (Scalar.ofBits (F := Ideal) .f32 0x00000000#32)) j = _
  rw [shapeCast_self, shapeCast_self, maximumf_apply, addf_apply, broadcast_apply, bias_row_apply]
  rfl

/-- The same entry, once each tile is known to be a block of a whole array: entry `i` of the whole biased and
    rectified array. -/
theorem tile_block (x0 : FVec Ideal S4000x8 .f32) (x1 : FVec Ideal S1x8 .f32) (A : Mat 200000 8) (B : Mat 1 8)
    (j : S4000x8.Idx) (i : S200000x8.Idx)
    (h0 : x0 j = A i)
    (h1 : x1 (ix2 (0 : Fin 1) ⟨(j 1).val, (j 1).isLt⟩) = B (ix2 0 (i 1))) :
    k1_pay1 (F := Ideal) x0 x1 j = biasRelu (Ideal.ofBits .f32 0x00000000#32) A B i := by
  rw [tile_apply, h0, h1]
  rfl

/-! ## From the blocks to the array -/

theorem hz : (![0, 0] : Fin 2 → Nat) = fun _ => 0 := funext fun a => by fin_cases a <;> rfl

/-- The printed index maps over the grid: the row tile of the aggregated array and the output block move with the
    point, the bias row stays at block 0, and every column block is block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the biased and rectified array built from the arrays the region entered
    with. -/
theorem flushed_eq (c : Dev nD) (t : Fin cfg1.N) :
    (dat1 (F := Ideal) V c).flushed 2 t
      = ((cfg1.win 2).blk t).view.read (Elt Ideal)
          (biasRelu (n := 200000) (p := 8) (Ideal.ofBits .f32 0x00000000#32) (V c main_v43) (V c main_v44)) := by
  show (cfg1.win 2).cut (grid1.coords t) ((dat1 V c).after 2 t) = _
  rw [after1_2]
  unfold out1_2
  rw [View.canon_unit_zero hz]
  simp only [View.ld_unit_zero (S := S4000x8) hz, View.ld_unit_zero (S := S1x8) hz]
  obtain ⟨e0, e1, e2, e3, e4, e5⟩ := idx_facts t
  funext j
  refine tile_block (iblk1 V c 0 t) (iblk1 V c 1 t) (V c main_v43) (V c main_v44) j _ ?_ ?_
  · show V c main_v43 (((cfg1.win 0).blk t).view.emb j) = _
    refine congrArg (V c main_v43) (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 8 + 1 * (j 1).val = win1_2.index t (1 : Fin 2) * 8 + 1 * (j 1).val; omega
  · show V c main_v44 (((cfg1.win 1).blk t).view.emb (ix2 (0 : Fin 1) ⟨(j 1).val, (j 1).isLt⟩)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 8 + 1 * (j 1).val = win1_2.index t (1 : Fin 2) * 8 + 1 * (j 1).val; omega

/-- An index of the output array is in point `t`'s block iff each coordinate is in the block's range on its axis. -/
theorem mem_blk (t : Fin cfg1.N) (i : S200000x8.Idx) :
    i ∈ ((cfg1.win 2).blk t).view.set ↔ ∀ a : Fin 2, win1_2.index t a * S4000x8.size a ≤ (i a).val ∧ (i a).val < win1_2.index t a * S4000x8.size a + S4000x8.size a := by
  show i ∈ ((View.whole main_v45).slice (win1_2.rect t)).set ↔ _
  rw [View.set_slice_whole, Rect.mem_set_unit]
  exact Iff.rfl

/-- Row `r` of the output is written by point `r / 4000`. -/
theorem cover (i : S200000x8.Idx) :
    ∃ t : Fin cfg1.N, (cfg1.win 2).flush t = true ∧ i ∈ ((cfg1.win 2).blk t).view.set := by
  have hi0 : (i 0).val < 200000 := (i 0).isLt
  have hi1 : (i 1).val < 8 := (i 1).isLt
  have hN : cfg1.N = 50 := N_1
  have ht : (i 0).val / 4000 < cfg1.N := by rw [hN]; omega
  obtain ⟨e0, e1, e2, e3, e4, e5⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ (0 : Fin 2) * 4000 ≤ (i 0).val ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 8 ≤ (i 1).val ∧ (i 1).val < win1_2.index ⟨(i 0).val / 4000, ht⟩ (1 : Fin 2) * 8 + 8
    rw [e5]; omega

/-- After the region its output array holds, at every index, the aggregated entry plus the bias row's entry in the same
    column, rectified at the zero literal. -/
theorem final (c : Dev nD) :
    (dat1 (F := Ideal) V c).arrAt 2 cfg1.N
      = biasRelu (n := 200000) (p := 8) (Ideal.ofBits .f32 0x00000000#32) (V c main_v43) (V c main_v44) :=
  (dat1 (F := Ideal) V c).arrAt_eq_of_cover 2 _ (fun t _ => flushed_eq V c t) cover

end Cert.KernelIdeal.Region1

end
-- ==== Proof.Region2.lean ====
/-
  The second matrix product, h · W2, as the kernel computes it (h the rectified first layer).

  The region's grid has 50 points; point t stages rows 4000·t … 4000·t + 3999 of h (all 8 columns), the whole of W2,
  and writes back rows 4000·t … 4000·t + 3999 of the product. Inside a point the body narrows both tiles to bf16 — the
  identity on extended reals — and multiplies them into a zero accumulator, so entry (p, j) of the tile is the sum
  over q of h_tile (p, q) · W2 (q, j). Row p of the tile is row 4000·t + p of h, so the written block is the
  corresponding block of the whole product; the 50 blocks tile the 200000 rows, so the array ends holding the whole
  product of the arrays the region entered with.
-/
import proofs.«169985_j32169305047308_1_alg».proof.Proof.Gen.KernelIdeal.Frame
import proofs.«169985_j32169305047308_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

/-! ## The tile product at an index -/

theorem lhs_row (j : S4000x3.Idx) (q : dot_S4000x8_S8x3_S4000x3_1_0_0_1_n_n.contr.Idx) :
    (dot_S4000x8_S8x3_S4000x3_1_0_0_1_n_n.lhsIdx j q 0).val = (j 0).val := by
  unfold DotDims.lhsIdx
  rw [dif_neg (show ¬(0 : Fin S4000x8.rank) ∈ dot_S4000x8_S8x3_S4000x3_1_0_0_1_n_n.lhsBatch by decide),
    dif_pos (show (0 : Fin S4000x8.rank) ∈ dot_S4000x8_S8x3_S4000x3_1_0_0_1_n_n.lhsNonContracting by decide)]
  rfl

theorem rhs_col (j : S4000x3.Idx) (q : dot_S4000x8_S8x3_S4000x3_1_0_0_1_n_n.contr.Idx) :
    (dot_S4000x8_S8x3_S4000x3_1_0_0_1_n_n.rhsIdx j q 1).val = (j 1).val := by
  unfold DotDims.rhsIdx
  rw [dif_neg (show ¬(1 : Fin S8x3.rank) ∈ dot_S4000x8_S8x3_S4000x3_1_0_0_1_n_n.rhsBatch by decide),
    dif_pos (show (1 : Fin S8x3.rank) ∈ dot_S4000x8_S8x3_S4000x3_1_0_0_1_n_n.rhsNonContracting by decide)]
  rfl

/-- Entry `j` of the body's product of two tiles: the sum over the 8 contracted coordinates. (The cast to the tile's own shape and the narrowing to
    bf16 are the identity at the extended reals, and the accumulator is the zero splat.) -/
theorem tile_apply (x0 : FVec Ideal S4000x8 .f32) (x1 : FVec Ideal S8x3 .f32) (j : S4000x3.Idx) :
    k2_pay1 (F := Ideal) x0 x1 j
      = ∑ q : Fin 8, x0 (ix2 ⟨(j 0).val, (j 0).isLt⟩ q) * x1 (ix2 q ⟨(j 1).val, (j 1).isLt⟩) := by
  unfold k2_pay1
  show FloatOps.matmul dot_S4000x8_S8x3_S4000x3_1_0_0_1_n_n none
      (truncf .bf16 (shapeCast S4000x8 x0 shapeCasts_S4000x8_S4000x8) bitsLt_bf16_f32)
      (truncf .bf16 x1 bitsLt_bf16_f32) (constant S4000x3 .f32 0x00000000#32) j = _
  rw [shapeCast_self, Ideal.matmul_constant_zero_apply,
    ← Equiv.sum_comp (contrEquiv1 dot_S4000x8_S8x3_S4000x3_1_0_0_1_n_n 8 rfl rfl).symm]
  refine Finset.sum_congr rfl fun k _ => ?_
  have hk := contrEquiv1_symm_val dot_S4000x8_S8x3_S4000x3_1_0_0_1_n_n 8 rfl rfl k
  have el : dot_S4000x8_S8x3_S4000x3_1_0_0_1_n_n.lhsIdx j
      ((contrEquiv1 dot_S4000x8_S8x3_S4000x3_1_0_0_1_n_n 8 rfl rfl).symm k)
      = ix2 ⟨(j 0).val, (j 0).isLt⟩ k := funext fun a => Fin.ext (by
    match a with
    | ⟨0, _⟩ => exact lhs_row _ _
    | ⟨1, _⟩ => exact (dot_S4000x8_S8x3_S4000x3_1_0_0_1_n_n.lhsIdx_val_of_single rfl j _).trans hk)
  have er : dot_S4000x8_S8x3_S4000x3_1_0_0_1_n_n.rhsIdx j
      ((contrEquiv1 dot_S4000x8_S8x3_S4000x3_1_0_0_1_n_n 8 rfl rfl).symm k)
      = ix2 k ⟨(j 1).val, (j 1).isLt⟩ := funext fun a => Fin.ext (by
    match a with
    | ⟨0, _⟩ => exact (dot_S4000x8_S8x3_S4000x3_1_0_0_1_n_n.rhsIdx_val_of_single rfl j _).trans hk
    | ⟨1, _⟩ => exact rhs_col _ _)
  show x0 _ * x1 _ = _
  rw [el, er]
  rfl

/-- The same entry, once each tile is known to be a block of a whole matrix: entry `i` of the whole product. -/
theorem tile_block (x0 : FVec Ideal S4000x8 .f32) (x1 : FVec Ideal S8x3 .f32) (X : Mat 200000 8) (W : Mat 8 3)
    (j : S4000x3.Idx) (i : S200000x3.Idx)
    (h0 : ∀ q : Fin 8, x0 (ix2 ⟨(j 0).val, (j 0).isLt⟩ q) = X (ix2 (i 0) q))
    (h1 : ∀ q : Fin 8, x1 (ix2 q ⟨(j 1).val, (j 1).isLt⟩) = W (ix2 q (i 1))) :
    k2_pay1 (F := Ideal) x0 x1 j = matProd X W i := by
  rw [tile_apply]
  unfold matProd
  exact Finset.sum_congr rfl fun q _ => by rw [h0 q, h1 q]

/-! ## From the blocks to the array -/

theorem hz : (![0, 0] : Fin 2 → Nat) = fun _ => 0 := funext fun a => by fin_cases a <;> rfl

/-- The printed index maps over the grid: the row tile of h and the output block move with the point, everything
    else stays at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the product of the arrays the region entered with. -/
theorem flushed_eq (c : Dev nD) (t : Fin cfg2.N) :
    (dat2 (F := Ideal) V c).flushed 2 t
      = ((cfg2.win 2).blk t).view.read (Elt Ideal) (matProd (n := 200000) (k := 8) (p := 3) (V c main_v45) (V c main_arg4)) := by
  show (cfg2.win 2).cut (grid2.coords t) ((dat2 V c).after 2 t) = _
  rw [after2_2]
  unfold out2_2
  rw [View.canon_unit_zero hz]
  simp only [View.ld_unit_zero (S := S4000x8) hz, View.ld_unit_zero (S := S8x3) hz]
  obtain ⟨e0, e1, e2, e3, e4, e5⟩ := idx_facts t
  funext j
  refine tile_block (iblk2 V c 0 t) (iblk2 V c 1 t) (V c main_v45) (V c main_arg4) j _ (fun q => ?_) (fun q => ?_)
  · show V c main_v45 (((cfg2.win 0).blk t).view.emb (ix2 ⟨(j 0).val, (j 0).isLt⟩ q)) = _
    refine congrArg (V c main_v45) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 8 + 1 * q.val = q.val; omega
  · show V c main_arg4 (((cfg2.win 1).blk t).view.emb (ix2 q ⟨(j 1).val, (j 1).isLt⟩)) = _
    refine congrArg (V c main_arg4) (funext fun a => Fin.ext ?_)
    match a with
    | ⟨0, _⟩ => show win2_1.index t (0 : Fin 2) * 8 + 1 * q.val = q.val; omega
    | ⟨1, _⟩ => show win2_1.index t (1 : Fin 2) * 3 + 1 * (j 1).val = win2_2.index t (1 : Fin 2) * 3 + 1 * (j 1).val; omega

/-- An index of the product array is in point `t`'s block iff each coordinate is in the block's range on its axis. -/
theorem mem_blk (t : Fin cfg2.N) (i : S200000x3.Idx) :
    i ∈ ((cfg2.win 2).blk t).view.set ↔ ∀ a : Fin 2, win2_2.index t a * S4000x3.size a ≤ (i a).val ∧ (i a).val < win2_2.index t a * S4000x3.size a + S4000x3.size a := by
  show i ∈ ((View.whole main_v46).slice (win2_2.rect t)).set ↔ _
  rw [View.set_slice_whole, Rect.mem_set_unit]
  exact Iff.rfl

/-- Row `r` of the product is written by point `r / 4000`. -/
theorem cover (i : S200000x3.Idx) :
    ∃ t : Fin cfg2.N, (cfg2.win 2).flush t = true ∧ i ∈ ((cfg2.win 2).blk t).view.set := by
  have hi0 : (i 0).val < 200000 := (i 0).isLt
  have hi1 : (i 1).val < 3 := (i 1).isLt
  have hN : cfg2.N = 50 := N_2
  have ht : (i 0).val / 4000 < cfg2.N := by rw [hN]; omega
  obtain ⟨e0, e1, e2, e3, e4, e5⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ (0 : Fin 2) * 4000 ≤ (i 0).val ∧ (i 0).val < win2_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ (1 : Fin 2) * 3 ≤ (i 1).val ∧ (i 1).val < win2_2.index ⟨(i 0).val / 4000, ht⟩ (1 : Fin 2) * 3 + 3
    rw [e5]; omega

/-- After the region its output array holds the whole product of the two arrays it entered with. -/
theorem final (c : Dev nD) :
    (dat2 (F := Ideal) V c).arrAt 2 cfg2.N = matProd (n := 200000) (k := 8) (p := 3) (V c main_v45) (V c main_arg4) :=
  (dat2 (F := Ideal) V c).arrAt_eq_of_cover 2 _ (fun t _ => flushed_eq V c t) cover

end Cert.KernelIdeal.Region2

end
-- ==== Proof.Region3.lean ====
/-
  The bias and the row-wise log-softmax after the second neighbourhood sum, as the kernel computes them.

  The region's grid has 100 points; point t stages rows 2000·t … 2000·t + 1999 of the aggregated array (all 3
  columns) and the whole one-row bias, and writes back the same rows of the output. Inside a point the body copies the
  one bias row down the 2000 rows of the tile and adds it (the logits); takes each row's maximum, folded from the
  literal the program prints for the least value, and subtracts it from the row's entries; exponentiates; sums each
  row; takes the logarithm of the sum and subtracts it from the row's shifted entries. Each of these steps looks only
  along a row, so entry (p, l) of the tile is the log-softmax of row p of the logits at column l. Row p of the tile is
  row 2000·t + p of the array and the column is unchanged, so the written block is the corresponding block of the
  log-softmax of the whole array; the 100 blocks tile the 200000 rows, so the output array ends holding all of it.
-/
import proofs.«169985_j32169305047308_1_alg».proof.Proof.Gen.KernelIdeal.Frame
import proofs.«169985_j32169305047308_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

/-! ## The layout steps at an index -/

/-- A vector of 2000 entries viewed as a column of 2000 rows and one entry each reads, at `(p, u)`, the vector at
    `p`: both have row-major position `p`, the unit coordinate `u` being 0. -/
theorem col_cast_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- A column of 2000 rows copied across 3 columns reads, at `j`, the column's entry in `j`'s row: the operand's
    column axis has extent one, so its coordinate there is 0. -/
theorem col_bcast_apply {α : Type} (w : S2000x1.Idx → α) (j : S2000x3.Idx) :
    broadcastTo S2000x3 w broadcasts_S2000x1_S2000x3 j = w (ix2 ⟨(j 0).val, (j 0).isLt⟩ (0 : Fin 1)) := by
  refine broadcastTo_apply w broadcasts_S2000x1_S2000x3 j (ix2 ⟨(j 0).val, (j 0).isLt⟩ (0 : Fin 1)) fun ax => ?_
  match ax with
  | ⟨0, _⟩ => rfl
  | ⟨1, _⟩ => rfl

/-- The one-row tile copied down 2000 rows reads, at `j`, the row's entry in `j`'s column. -/
theorem bias_row_apply (x1 : FVec Ideal S1x3 .f32) (j : S2000x3.Idx) :
    broadcastTo S2000x3 x1 broadcasts_S1x3_S2000x3 j = x1 (ix2 (0 : Fin 1) ⟨(j 1).val, (j 1).isLt⟩) := by
  refine broadcastTo_apply x1 broadcasts_S1x3_S2000x3 j (ix2 (0 : Fin 1) ⟨(j 1).val, (j 1).isLt⟩) fun ax => ?_
  match ax with
  | ⟨0, _⟩ => rfl
  | ⟨1, _⟩ => rfl

/-- Reducing along the columns, the index of row `r` with the column `k` put back is `(r, k)`. -/
theorem lift_eq (r : Fin 2000) (k : Fin 3) :
    reduces_S2000x3_S2000.lift (ix1 r) k = ix2 r k :=
  funext fun a => Fin.ext (by
    match a with
    | ⟨0, _⟩ => rfl
    | ⟨1, _⟩ => rfl)

/-! ## The two row reductions -/

/-- The maximum along the columns, read at row `r`: the fold of the maximum over the row's 3 entries from the value of
    the literal it starts from. -/
theorem rowmax_apply (Z : FVec Ideal S2000x3 .f32) (r : Fin 2000) :
    multiReduction (F := Ideal) .maximumf [1] S2000 Z 0xFF800000#32 reduces_S2000x3_S2000 (.inl rfl) rfl (ix1 r)
      = rowMax (n := 2000) (p := 3) (Ideal.ofBits .f32 0xFF800000#32) Z r := by
  refine (Ideal.multiReduction_maximumf_single Z 0xFF800000#32 reduces_S2000x3_S2000 (.inl rfl) rfl (ix1 r)).trans ?_
  unfold rowMax
  show (Finset.univ : Finset (Fin 3)).fold max (Ideal.ofBits .f32 0xFF800000#32) (fun k => Z (reduces_S2000x3_S2000.lift (ix1 r) k)) = _
  exact congrArg ((Finset.univ : Finset (Fin 3)).fold max (Ideal.ofBits .f32 0xFF800000#32)) (funext fun k => congrArg Z (lift_eq r k))

/-- The sum along the columns, read at row `r`: the sum of the row's 3 entries. -/
theorem rowsum_apply (Y : FVec Ideal S2000x3 .f32) (r : Fin 2000) :
    multiReduction (F := Ideal) .add [1] S2000 Y 0x00000000#32 reduces_S2000x3_S2000 (.inl rfl) rfl (ix1 r)
      = ∑ q : Fin 3, Y (ix2 r q) := by
  refine (Ideal.multiReduction_add_single Y 0x00000000#32 reduces_S2000x3_S2000 (.inl rfl) rfl (ix1 r)).trans ?_
  show ∑ k : Fin 3, Y (reduces_S2000x3_S2000.lift (ix1 r) k) = _
  exact Finset.sum_congr rfl fun k _ => congrArg Y (lift_eq r k)

/-! ## The body from the logits on -/

/-- A tile less its row maxima: the maxima taken along the columns, stood up as a column, copied across the 3 columns
    and subtracted. -/
def shiftTile (Z : FVec Ideal S2000x3 .f32) : FVec Ideal S2000x3 .f32 :=
  subf Z (broadcastTo S2000x3
    (shapeCast S2000x1
      (multiReduction (F := Ideal) .maximumf [1] S2000 Z 0xFF800000#32 reduces_S2000x3_S2000 (.inl rfl) rfl)
      shapeCasts_S2000_S2000x1)
    broadcasts_S2000x1_S2000x3)

/-- The shifted tile less the logarithm of each row's sum of exponentials, that logarithm stood up as a column and
    copied across the 3 columns. -/
def softmaxTile (Z : FVec Ideal S2000x3 .f32) : FVec Ideal S2000x3 .f32 :=
  subf (shiftTile Z) (broadcastTo S2000x3
    (log (shapeCast S2000x1
      (multiReduction (F := Ideal) .add [1] S2000 (exp (shiftTile Z)) 0x00000000#32 reduces_S2000x3_S2000 (.inl rfl) rfl)
      shapeCasts_S2000_S2000x1))
    broadcasts_S2000x1_S2000x3)

/-- Entry `j` of the shifted tile is the entry less the maximum of its row. -/
theorem shiftTile_apply (Z : FVec Ideal S2000x3 .f32) (j : S2000x3.Idx) :
    shiftTile Z j = shifted (n := 2000) (p := 3) (Ideal.ofBits .f32 0xFF800000#32) Z j := by
  unfold shiftTile shifted
  rw [subf_apply, col_bcast_apply, col_cast_apply, rowmax_apply]
  rfl

/-- Entry `j` of the whole tail: the shifted entry less the logarithm of the sum, over `j`'s row, of the exponentials of
    the shifted entries. -/
theorem softmaxTile_apply (Z : FVec Ideal S2000x3 .f32) (j : S2000x3.Idx) :
    softmaxTile Z j
      = shifted (n := 2000) (p := 3) (Ideal.ofBits .f32 0xFF800000#32) Z j
        - Ideal.log (rowSumExp (n := 2000) (p := 3) (Ideal.ofBits .f32 0xFF800000#32) Z (j 0)) := by
  unfold softmaxTile
  rw [subf_apply, col_bcast_apply]
  show shiftTile Z j - Ideal.log (shapeCast S2000x1
      (multiReduction (F := Ideal) .add [1] S2000 (exp (shiftTile Z)) 0x00000000#32 reduces_S2000x3_S2000 (.inl rfl) rfl)
      shapeCasts_S2000_S2000x1 (ix2 ⟨(j 0).val, (j 0).isLt⟩ (0 : Fin 1))) = _
  rw [col_cast_apply, rowsum_apply, shiftTile_apply]
  unfold rowSumExp
  refine congrArg (fun s => shifted (n := 2000) (p := 3) (Ideal.ofBits .f32 0xFF800000#32) Z j - Ideal.log s)
    (Finset.sum_congr rfl fun q _ => ?_)
  show Ideal.exp (shiftTile Z (ix2 ⟨(j 0).val, (j 0).isLt⟩ q)) = _
  rw [shiftTile_apply]
  rfl

/-! ## The tile's entry at an index -/

/-- The logits tile: the aggregated tile plus the bias row copied down its rows. (Both shape casts are to the operand's
    own shape, so they are the identity.) -/
theorem logits_eq (x0 : FVec Ideal S2000x3 .f32) (x1 : FVec Ideal S1x3 .f32) :
    addf (shapeCast S2000x3 x0 shapeCasts_S2000x3_S2000x3)
        (broadcastTo S2000x3 (shapeCast S1x3 x1 shapeCasts_S1x3_S1x3) broadcasts_S1x3_S2000x3)
      = addRow (n := 2000) (p := 3) x0 x1 := by
  funext j
  rw [shapeCast_self, shapeCast_self, addf_apply, bias_row_apply]
  rfl

/-- Entry `j` of what the body stores is the log-softmax, along `j`'s row, of the tile plus the bias row. -/
theorem tile_apply (x0 : FVec Ideal S2000x3 .f32) (x1 : FVec Ideal S1x3 .f32) (j : S2000x3.Idx) :
    k3_pay1 (F := Ideal) x0 x1 j
      = logSoftmax (n := 2000) (p := 3) (Ideal.ofBits .f32 0xFF800000#32) x0 x1 j := by
  unfold k3_pay1
  show softmaxTile (addf (shapeCast S2000x3 x0 shapeCasts_S2000x3_S2000x3)
        (broadcastTo S2000x3 (shapeCast S1x3 x1 shapeCasts_S1x3_S1x3) broadcasts_S1x3_S2000x3)) j = _
  rw [logits_eq, softmaxTile_apply]
  rfl

/-- The log-softmax at an index looks only at the index's row of the first array and at the bias row: two pairs of
    arrays that agree there, at indices in the same column, have the same log-softmax there. -/
theorem logSoftmax_congr_row {n m p : Nat} (bot : EReal) (a : Mat n p) (b : Mat 1 p) (A : Mat m p) (B : Mat 1 p)
    (j : (⟨2, ![n, p]⟩ : Shape).Idx) (i : (⟨2, ![m, p]⟩ : Shape).Idx)
    (hcol : (j 1).val = (i 1).val)
    (h0 : ∀ q : Fin p, a (ix2 (j 0) q) = A (ix2 (i 0) q))
    (h1 : ∀ q : Fin p, b (ix2 0 q) = B (ix2 0 q)) :
    logSoftmax bot a b j = logSoftmax bot A B i := by
  have hc : (j 1 : Fin p) = (i 1 : Fin p) := Fin.ext hcol
  have hZ : ∀ q : Fin p, addRow a b (ix2 (j 0) q) = addRow A B (ix2 (i 0) q) := fun q => by
    show a (ix2 (j 0) q) + b (ix2 0 q) = A (ix2 (i 0) q) + B (ix2 0 q)
    rw [h0 q, h1 q]
  have hM : rowMax bot (addRow a b) (j 0) = rowMax bot (addRow A B) (i 0) := by
    unfold rowMax
    exact congrArg ((Finset.univ : Finset (Fin p)).fold max bot) (funext hZ)
  have hS : ∀ q : Fin p, shifted bot (addRow a b) (ix2 (j 0) q) = shifted bot (addRow A B) (ix2 (i 0) q) := fun q => by
    show addRow a b (ix2 (j 0) q) - rowMax bot (addRow a b) (j 0)
      = addRow A B (ix2 (i 0) q) - rowMax bot (addRow A B) (i 0)
    rw [hZ q, hM]
  have hE : rowSumExp bot (addRow a b) (j 0) = rowSumExp bot (addRow A B) (i 0) := by
    unfold rowSumExp
    exact Finset.sum_congr rfl fun q _ => by rw [hS q]
  have hj : shifted bot (addRow a b) j = shifted bot (addRow A B) i :=
    (congrArg (shifted bot (addRow a b)) (eq_ix2 j)).trans
      ((hS (j 1)).trans (congrArg (shifted bot (addRow A B)) ((congrArg (ix2 (i 0)) hc).trans (eq_ix2 i).symm)))
  unfold logSoftmax
  rw [hj, hE]

/-- The stored entry, once each tile is known to be a block of a whole array: entry `i` of the log-softmax of the whole
    array plus the bias row. -/
theorem tile_block (x0 : FVec Ideal S2000x3 .f32) (x1 : FVec Ideal S1x3 .f32) (A : Mat 200000 3) (B : Mat 1 3)
    (j : S2000x3.Idx) (i : S200000x3.Idx)
    (hcol : (j 1).val = (i 1).val)
    (h0 : ∀ q : Fin 3, x0 (ix2 ⟨(j 0).val, (j 0).isLt⟩ q) = A (ix2 (i 0) q))
    (h1 : ∀ q : Fin 3, x1 (ix2 (0 : Fin 1) q) = B (ix2 0 q)) :
    k3_pay1 (F := Ideal) x0 x1 j = logSoftmax (Ideal.ofBits .f32 0xFF800000#32) A B i :=
  (tile_apply x0 x1 j).trans (logSoftmax_congr_row _ x0 x1 A B j i hcol h0 h1)

/-! ## From the blocks to the array -/

theorem hz : (![0, 0] : Fin 2 → Nat) = fun _ => 0 := funext fun a => by fin_cases a <;> rfl

/-- The printed index maps over the grid: the row tile of the aggregated array and the output block move with the
    point, the bias row stays at block 0, and every column block is block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the log-softmax built from the arrays the region entered with. -/
theorem flushed_eq (c : Dev nD) (t : Fin cfg3.N) :
    (dat3 (F := Ideal) V c).flushed 2 t
      = ((cfg3.win 2).blk t).view.read (Elt Ideal)
          (logSoftmax (n := 200000) (p := 3) (Ideal.ofBits .f32 0xFF800000#32) (V c main_v59) (V c main_v60)) := by
  show (cfg3.win 2).cut (grid3.coords t) ((dat3 V c).after 2 t) = _
  rw [after3_2]
  unfold out3_2
  rw [View.canon_unit_zero hz]
  simp only [View.ld_unit_zero (S := S2000x3) hz, View.ld_unit_zero (S := S1x3) hz]
  obtain ⟨e0, e1, e2, e3, e4, e5⟩ := idx_facts t
  funext j
  refine tile_block (iblk3 V c 0 t) (iblk3 V c 1 t) (V c main_v59) (V c main_v60) j _ ?_ (fun q => ?_) (fun q => ?_)
  · show (j 1).val = win3_2.index t (1 : Fin 2) * 3 + 1 * (j 1).val
    omega
  · show V c main_v59 (((cfg3.win 0).blk t).view.emb (ix2 ⟨(j 0).val, (j 0).isLt⟩ q)) = _
    refine congrArg (V c main_v59) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 3 + 1 * q.val = q.val; omega
  · show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 3 + 1 * q.val = q.val; omega

/-- An index of the output array is in point `t`'s block iff each coordinate is in the block's range on its axis. -/
theorem mem_blk (t : Fin cfg3.N) (i : S200000x3.Idx) :
    i ∈ ((cfg3.win 2).blk t).view.set ↔ ∀ a : Fin 2, win3_2.index t a * S2000x3.size a ≤ (i a).val ∧ (i a).val < win3_2.index t a * S2000x3.size a + S2000x3.size a := by
  show i ∈ ((View.whole main_v61).slice (win3_2.rect t)).set ↔ _
  rw [View.set_slice_whole, Rect.mem_set_unit]
  exact Iff.rfl

/-- Row `r` of the output is written by point `r / 2000`. -/
theorem cover (i : S200000x3.Idx) :
    ∃ t : Fin cfg3.N, (cfg3.win 2).flush t = true ∧ i ∈ ((cfg3.win 2).blk t).view.set := by
  have hi0 : (i 0).val < 200000 := (i 0).isLt
  have hi1 : (i 1).val < 3 := (i 1).isLt
  have hN : cfg3.N = 100 := N_3
  have ht : (i 0).val / 2000 < cfg3.N := by rw [hN]; omega
  obtain ⟨e0, e1, e2, e3, e4, e5⟩ := idx_facts ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 3 ≤ (i 1).val ∧ (i 1).val < win3_2.index ⟨(i 0).val / 2000, ht⟩ (1 : Fin 2) * 3 + 3
    rw [e5]; omega

/-- After the region its output array holds the row-wise log-softmax of the aggregated array plus the bias row. -/
theorem final (c : Dev nD) :
    (dat3 (F := Ideal) V c).arrAt 2 cfg3.N
      = logSoftmax (n := 200000) (p := 3) (Ideal.ofBits .f32 0xFF800000#32) (V c main_v59) (V c main_v60) :=
  (dat3 (F := Ideal) V c).arrAt_eq_of_cover 2 _ (fun t _ => flushed_eq V c t) cover

end Cert.KernelIdeal.Region3

end
-- ==== Proof.KernelValue.lean ====
/-
  The idealized kernel's result array as one term of its six arguments.

  The generated frame folds the buffer contents through @main's nine segments. Read level by level at the extended
  reals: after the three opening host stretches the buffers hold the sources, targets and edge weights; the first
  region leaves x · W1; the next stretch its neighbourhood sum and the first bias as a row; the second region the
  rectified sum plus bias; the third region its product with W2; the last stretch that product's neighbourhood sum and
  the second bias as a row; the fourth region the row-wise log-softmax of sum plus bias. Every later level finds the
  sources, targets, weights and the remaining arguments where the earlier levels left them, because no region and no
  later host operation writes them.
-/
import proofs.«169985_j32169305047308_1_alg».proof.Proof.Gen.KernelIdeal.Frame
import proofs.«169985_j32169305047308_1_alg».proof.Proof.KernelHost
import proofs.«169985_j32169305047308_1_alg».proof.Proof.Region0
import proofs.«169985_j32169305047308_1_alg».proof.Proof.Region1
import proofs.«169985_j32169305047308_1_alg».proof.Proof.Region2
import proofs.«169985_j32169305047308_1_alg».proof.Proof.Region3
import proofs.«169985_j32169305047308_1_alg».proof.Proof.Spec
import Idealize.ShloMosaic.Lib.ValueLayout

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.GcnSpec Cert.GcnChain

/-! ## A bias vector reshaped to one row -/

/-- The 8 entries of a vector laid out as a 1 × 8 array are the vector as a one-row matrix. -/
theorem row8 (x : FVec Ideal S8 .f32) : shapeCast S1x8 x shapeCasts_S8_S1x8 = rowOf (p := 8) x := by
  funext j
  obtain ⟨u, i, rfl⟩ : ∃ (u : Fin 1) (i : Fin 8), j = ix2 u i := ⟨j 0, j 1, eq_ix2 j⟩
  exact shapeCast_a_1a_apply x shapeCasts_S8_S1x8 u i

/-- The same for 3 entries. -/
theorem row3 (x : FVec Ideal S3 .f32) : shapeCast S1x3 x shapeCasts_S3_S1x3 = rowOf (p := 3) x := by
  funext j
  obtain ⟨u, i, rfl⟩ : ∃ (u : Fin 1) (i : Fin 3), j = ix2 u i := ⟨j 0, j 1, eq_ix2 j⟩
  exact shapeCast_a_1a_apply x shapeCasts_S3_S1x3 u i

variable (m : (ℓ : Loc nD τ sig) → Buf (Elt Ideal) ℓ) (ρ : Dev nD → PrngReg) (c : Dev nD)

/-! ## The intermediate values, named -/

/-- The sources, targets and edge weights of the launched edge list. -/
def srcs := src (F := Ideal) (m ((c : Thread nD τ).loc main_arg1))
def dsts := dst (F := Ideal) (m ((c : Thread nD τ).loc main_arg1))
def wts := weight (F := Ideal) (srcs m c) (dsts m c)
/-- x · W1. -/
def feat1 : Mat 200000 8 := matProd (n := 200000) (k := 512) (p := 8) (m ((c : Thread nD τ).loc main_arg0)) (m ((c : Thread nD τ).loc main_arg2))
/-- Its neighbourhood sum. -/
def agg1 := sum8 (F := Ideal) (feat1 m c) (srcs m c) (dsts m c) (wts m c)
/-- The hidden layer: the sum plus the first bias, rectified. -/
def hid : Mat 200000 8 := biasRelu (Ideal.ofBits .f32 0x00000000#32) (agg1 m c) (rowOf (m ((c : Thread nD τ).loc main_arg3)))
/-- hidden · W2. -/
def feat2 : Mat 200000 3 := matProd (n := 200000) (k := 8) (p := 3) (hid m c) (m ((c : Thread nD τ).loc main_arg4))
/-- Its neighbourhood sum. -/
def agg2 := sum3 (F := Ideal) (feat2 m c) (srcs m c) (dsts m c) (wts m c)
/-- The result: the row-wise log-softmax of the second sum plus the second bias. -/
def result : Mat 200000 3 := logSoftmax (Ideal.ofBits .f32 0xFF800000#32) (agg2 m c) (rowOf (m ((c : Thread nD τ).loc main_arg5)))

/-! ## Level 3: after the opening host stretches -/

theorem L3_src : W3 m ρ c (Proc.devRef .tc main_v5) = srcs m c := HostStretch.pre_src (W0 m ρ c)
theorem L3_dst : W3 m ρ c (Proc.devRef .tc main_v6) = dsts m c := HostStretch.pre_dst (W0 m ρ c)
theorem L3_wts : W3 m ρ c (Proc.devRef .tc main_v29) = wts m c := HostStretch.pre_weight (W0 m ρ c)
theorem L3_arg0 : W3 m ρ c (Proc.devRef .tc main_arg0) = (m ((c : Thread nD τ).loc main_arg0)) := HostStretch.pre_arg0 (W0 m ρ c)
theorem L3_arg2 : W3 m ρ c (Proc.devRef .tc main_arg2) = (m ((c : Thread nD τ).loc main_arg2)) := HostStretch.pre_arg2 (W0 m ρ c)
theorem L3_arg3 : W3 m ρ c (Proc.devRef .tc main_arg3) = (m ((c : Thread nD τ).loc main_arg3)) := HostStretch.pre_arg3 (W0 m ρ c)
theorem L3_arg4 : W3 m ρ c (Proc.devRef .tc main_arg4) = (m ((c : Thread nD τ).loc main_arg4)) := HostStretch.pre_arg4 (W0 m ρ c)
theorem L3_arg5 : W3 m ρ c (Proc.devRef .tc main_arg5) = (m ((c : Thread nD τ).loc main_arg5)) := HostStretch.pre_arg5 (W0 m ρ c)

/-! ## Level 4: after the first region -/

theorem L4_feat : W4 m ρ c (Proc.devRef .tc main_v30) = feat1 m c :=
  ((W4_arr m ρ c 2).trans (Region0.final (V3 m ρ) c)).trans (by
    show matProd (n := 200000) (k := 512) (p := 8) (W3 m ρ c (Proc.devRef .tc main_arg0)) (W3 m ρ c (Proc.devRef .tc main_arg2)) = _
    rw [L3_arg0, L3_arg2]; rfl)
theorem L4_src : W4 m ρ c (Proc.devRef .tc main_v5) = srcs m c :=
  (W4_of_ne m ρ c main_v5 (by decide)).trans (L3_src m ρ c)
theorem L4_dst : W4 m ρ c (Proc.devRef .tc main_v6) = dsts m c :=
  (W4_of_ne m ρ c main_v6 (by decide)).trans (L3_dst m ρ c)
theorem L4_wts : W4 m ρ c (Proc.devRef .tc main_v29) = wts m c :=
  (W4_of_ne m ρ c main_v29 (by decide)).trans (L3_wts m ρ c)
theorem L4_arg3 : W4 m ρ c (Proc.devRef .tc main_arg3) = (m ((c : Thread nD τ).loc main_arg3)) :=
  (W4_of_ne m ρ c main_arg3 (by decide)).trans (L3_arg3 m ρ c)
theorem L4_arg4 : W4 m ρ c (Proc.devRef .tc main_arg4) = (m ((c : Thread nD τ).loc main_arg4)) :=
  (W4_of_ne m ρ c main_arg4 (by decide)).trans (L3_arg4 m ρ c)
theorem L4_arg5 : W4 m ρ c (Proc.devRef .tc main_arg5) = (m ((c : Thread nD τ).loc main_arg5)) :=
  (W4_of_ne m ρ c main_arg5 (by decide)).trans (L3_arg5 m ρ c)

/-! ## Level 5: after the middle host stretch -/

theorem L5_agg : W5 m ρ c (Proc.devRef .tc main_v43) = agg1 m c := by
  show StableHlo.after hostOps1 (W4 m ρ c) (Proc.devRef .tc main_v43) = _
  rw [HostStretch.mid_sum8, L4_feat, L4_src, L4_dst, L4_wts]; rfl
theorem L5_bias : W5 m ρ c (Proc.devRef .tc main_v44) = rowOf (p := 8) (m ((c : Thread nD τ).loc main_arg3)) := by
  show StableHlo.after hostOps1 (W4 m ρ c) (Proc.devRef .tc main_v44) = _
  rw [HostStretch.mid_bias, L4_arg3]; exact row8 _
theorem L5_src : W5 m ρ c (Proc.devRef .tc main_v5) = srcs m c :=
  (HostStretch.mid_v5 (W4 m ρ c)).trans (L4_src m ρ c)
theorem L5_dst : W5 m ρ c (Proc.devRef .tc main_v6) = dsts m c :=
  (HostStretch.mid_v6 (W4 m ρ c)).trans (L4_dst m ρ c)
theorem L5_wts : W5 m ρ c (Proc.devRef .tc main_v29) = wts m c :=
  (HostStretch.mid_v29 (W4 m ρ c)).trans (L4_wts m ρ c)
theorem L5_arg4 : W5 m ρ c (Proc.devRef .tc main_arg4) = (m ((c : Thread nD τ).loc main_arg4)) :=
  (HostStretch.mid_arg4 (W4 m ρ c)).trans (L4_arg4 m ρ c)
theorem L5_arg5 : W5 m ρ c (Proc.devRef .tc main_arg5) = (m ((c : Thread nD τ).loc main_arg5)) :=
  (HostStretch.mid_arg5 (W4 m ρ c)).trans (L4_arg5 m ρ c)

/-! ## Level 6: after the second region -/

theorem L6_hid : W6 m ρ c (Proc.devRef .tc main_v45) = hid m c :=
  ((W6_arr m ρ c 2).trans (Region1.final (V5 m ρ) c)).trans (by
    show biasRelu (n := 200000) (p := 8) (Ideal.ofBits .f32 0x00000000#32) (W5 m ρ c (Proc.devRef .tc main_v43)) (W5 m ρ c (Proc.devRef .tc main_v44)) = _
    rw [L5_agg, L5_bias]; rfl)
theorem L6_src : W6 m ρ c (Proc.devRef .tc main_v5) = srcs m c :=
  (W6_of_ne m ρ c main_v5 (by decide)).trans (L5_src m ρ c)
theorem L6_dst : W6 m ρ c (Proc.devRef .tc main_v6) = dsts m c :=
  (W6_of_ne m ρ c main_v6 (by decide)).trans (L5_dst m ρ c)
theorem L6_wts : W6 m ρ c (Proc.devRef .tc main_v29) = wts m c :=
  (W6_of_ne m ρ c main_v29 (by decide)).trans (L5_wts m ρ c)
theorem L6_arg4 : W6 m ρ c (Proc.devRef .tc main_arg4) = (m ((c : Thread nD τ).loc main_arg4)) :=
  (W6_of_ne m ρ c main_arg4 (by decide)).trans (L5_arg4 m ρ c)
theorem L6_arg5 : W6 m ρ c (Proc.devRef .tc main_arg5) = (m ((c : Thread nD τ).loc main_arg5)) :=
  (W6_of_ne m ρ c main_arg5 (by decide)).trans (L5_arg5 m ρ c)

/-! ## Level 7: after the third region -/

theorem L7_feat : W7 m ρ c (Proc.devRef .tc main_v46) = feat2 m c :=
  ((W7_arr m ρ c 2).trans (Region2.final (V6 m ρ) c)).trans (by
    show matProd (n := 200000) (k := 8) (p := 3) (W6 m ρ c (Proc.devRef .tc main_v45)) (W6 m ρ c (Proc.devRef .tc main_arg4)) = _
    rw [L6_hid, L6_arg4]; rfl)
theorem L7_src : W7 m ρ c (Proc.devRef .tc main_v5) = srcs m c :=
  (W7_of_ne m ρ c main_v5 (by decide)).trans (L6_src m ρ c)
theorem L7_dst : W7 m ρ c (Proc.devRef .tc main_v6) = dsts m c :=
  (W7_of_ne m ρ c main_v6 (by decide)).trans (L6_dst m ρ c)
theorem L7_wts : W7 m ρ c (Proc.devRef .tc main_v29) = wts m c :=
  (W7_of_ne m ρ c main_v29 (by decide)).trans (L6_wts m ρ c)
theorem L7_arg5 : W7 m ρ c (Proc.devRef .tc main_arg5) = (m ((c : Thread nD τ).loc main_arg5)) :=
  (W7_of_ne m ρ c main_arg5 (by decide)).trans (L6_arg5 m ρ c)

/-! ## Level 8: after the last host stretch -/

theorem L8_agg : W8 m ρ c (Proc.devRef .tc main_v59) = agg2 m c := by
  show StableHlo.after hostOps3 (W7 m ρ c) (Proc.devRef .tc main_v59) = _
  rw [HostStretch.post_sum3, L7_feat, L7_src, L7_dst, L7_wts]; rfl
theorem L8_bias : W8 m ρ c (Proc.devRef .tc main_v60) = rowOf (p := 3) (m ((c : Thread nD τ).loc main_arg5)) := by
  show StableHlo.after hostOps3 (W7 m ρ c) (Proc.devRef .tc main_v60) = _
  rw [HostStretch.post_bias, L7_arg5]; exact row3 _

/-! ## Level 9: after the fourth region -/

/-- The result buffer at the last boundary holds `result`. -/
theorem L9_result : W9 m ρ c (Proc.devRef .tc main_v61) = result m c :=
  ((W9_arr m ρ c 2).trans (Region3.final (V8 m ρ) c)).trans (by
    show logSoftmax (n := 200000) (p := 3) (Ideal.ofBits .f32 0xFF800000#32) (W8 m ρ c (Proc.devRef .tc main_v59)) (W8 m ρ c (Proc.devRef .tc main_v60)) = _
    rw [L8_agg, L8_bias]; rfl)

end Cert.KernelIdeal.Value

end
-- ==== Proof.RefStages.lean ====
/-
  The reference's run, read stage by stage.

  The reference is a straight line of 138 host operations. Its run leaves every buffer at the fold of the operations'
  results over the launch contents. That fold is read here in six stretches, cut where a dense piece meets a sparse
  one: the first matrix product; the edge lists, degrees, weights and the first neighbourhood sum; the bias and the
  rectifier; the second matrix product; the edge lists, degrees, weights (computed again) and the second
  neighbourhood sum; the bias and the log-softmax. Each stretch's result is a named function of what the stretch
  found in the buffers it reads, and the six argument arrays are written by no operation, so every stretch finds
  them as launched. Composing the six gives the result array as one term, `value`, of the arguments.
-/
import proofs.«169985_j32169305047308_1_alg».proof.Proof.RefRun
import proofs.«169985_j32169305047308_1_alg».proof.Proof.Chain
import Idealize.ShloMosaic.Lib.StableHlo.Run

set_option maxRecDepth 16384

noncomputable section

namespace Cert.ReferenceIdeal.Stages

open Cert.ReferenceIdeal Cert.ReferenceIdeal.Gen Cert.ReferenceIdeal.ValueP Cert.GcnChain
open Idealize.ShloMosaic Idealize.ShloMosaic.TcCoe Idealize.SL.Sem Idealize.ShloMosaic.StableHlo

variable {F : FTy → Type} [FloatOps F]

/-! ## The dense pieces, as the reference spells them -/

/-- x · W1 on the host. -/
def lin1 (x : (⟨S200000x512, .f32⟩ : BufTy).Contents (Elt F)) (w : (⟨S512x8, .f32⟩ : BufTy).Contents (Elt F)) :
    (⟨S200000x8, .f32⟩ : BufTy).Contents (Elt F) :=
  Host.dotGeneral dot_S200000x512_S512x8_S200000x8_1_0_0_1_n_n none x w

/-- The bias broadcast down the rows and added, then the maximum with a zero splat. -/
def act (a : (⟨S200000x8, .f32⟩ : BufTy).Contents (Elt F)) (b : (⟨S8, .f32⟩ : BufTy).Contents (Elt F)) :
    (⟨S200000x8, .f32⟩ : BufTy).Contents (Elt F) :=
  maximumf (addf a (broadcastInDim S200000x8 ![0, 1] bcast_S1x8_S200000x8_0_1 (broadcastInDim S1x8 ![1] bcast_S8_S1x8_1 b)))
    (broadcastInDim S200000x8 ![] bcast_S_S200000x8 (constant S_ .f32 0x00000000#32))

/-- h · W2 on the host. -/
def lin2 (h : (⟨S200000x8, .f32⟩ : BufTy).Contents (Elt F)) (w : (⟨S8x3, .f32⟩ : BufTy).Contents (Elt F)) :
    (⟨S200000x3, .f32⟩ : BufTy).Contents (Elt F) :=
  Host.dotGeneral dot_S200000x8_S8x3_S200000x3_1_0_0_1_n_n none h w

/-- The logits: the bias broadcast down the rows and added. -/
def logit (a : (⟨S200000x3, .f32⟩ : BufTy).Contents (Elt F)) (b : (⟨S3, .f32⟩ : BufTy).Contents (Elt F)) :
    (⟨S200000x3, .f32⟩ : BufTy).Contents (Elt F) :=
  addf a (broadcastInDim S200000x3 ![0, 1] bcast_S1x3_S200000x3_0_1 (broadcastInDim S1x3 ![1] bcast_S3_S1x3_1 b))

/-- The row maxima as the host takes them: a maximum-reduce from the first literal, then once more the maximum with a
    splat of the same literal. -/
def rmax (z : (⟨S200000x3, .f32⟩ : BufTy).Contents (Elt F)) : (⟨S200000, .f32⟩ : BufTy).Contents (Elt F) :=
  maximumf (broadcastInDim S200000 ![] bcast_S_S200000 (constant S_ .f32 0xFF800000#32))
    (Host.reduce FloatOps.maximumf z (constant S_ .f32 0xFF800000#32) reducesTo_S200000x3_S200000_d1 h_S_)

/-- Every logit less its row's maximum. -/
def shift (z : (⟨S200000x3, .f32⟩ : BufTy).Contents (Elt F)) : (⟨S200000x3, .f32⟩ : BufTy).Contents (Elt F) :=
  subf z (broadcastInDim S200000x3 ![0, 1] bcast_S200000x1_S200000x3_0_1 (broadcastInDim S200000x1 ![0] bcast_S200000_S200000x1_0 (rmax z)))

/-- The log-softmax of the shifted logits: each less the logarithm of its row's sum of exponentials. -/
def lsm (z : (⟨S200000x3, .f32⟩ : BufTy).Contents (Elt F)) : (⟨S200000x3, .f32⟩ : BufTy).Contents (Elt F) :=
  subf (shift z) (broadcastInDim S200000x3 ![0, 1] bcast_S200000x1_S200000x3_0_1
    (Host.log (broadcastInDim S200000x1 ![0] bcast_S200000_S200000x1_0
      (Host.reduceAdd (Host.exp (shift z)) (constant S_ .f32 0x00000000#32) reducesTo_S200000x3_S200000_d1 h_S_))))

/-- The whole reference as one term of its six arguments. -/
def value (x0 : (⟨S200000x512, .f32⟩ : BufTy).Contents (Elt F)) (x1 : (⟨S2x6400000, .i32⟩ : BufTy).Contents (Elt F))
    (x2 : (⟨S512x8, .f32⟩ : BufTy).Contents (Elt F)) (x3 : (⟨S8, .f32⟩ : BufTy).Contents (Elt F))
    (x4 : (⟨S8x3, .f32⟩ : BufTy).Contents (Elt F)) (x5 : (⟨S3, .f32⟩ : BufTy).Contents (Elt F)) :
    (⟨S200000x3, .f32⟩ : BufTy).Contents (Elt F) :=
  lsm (logit (sum3 (lin2 (act (sum8 (lin1 x0 x2) (src x1) (dst x1) (weight (src x1) (dst x1))) x3) x4)
    (src x1) (dst x1) (weight (src x1) (dst x1))) x5)

/-! ## Cutting the fold -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A prefix of the line, cut once more: first the shorter prefix, then what lies between. -/
theorem after_take_split (l : List (HloOp τ sig (Elt F))) (k₁ k₂ : Nat) (h : k₁ ≤ k₂) (V : Valuation τ sig (Elt F)) :
    after (l.take k₂) V = after ((l.take k₂).drop k₁) (after (l.take k₁) V) := by
  have e : (l.take k₂).take k₁ = l.take k₁ := by rw [List.take_take, Nat.min_eq_left h]
  rw [← e, ← after_append, List.take_append_drop]

/-- The whole line: a prefix, then the rest. -/
theorem after_drop_split (l : List (HloOp τ sig (Elt F))) (k : Nat) (V : Valuation τ sig (Elt F)) :
    after l V = after (l.drop k) (after (l.take k) V) := by
  rw [← after_append, List.take_append_drop]

/-! ## No operation writes an argument array -/

theorem arg0_kept : ∀ op ∈ (ops : List (HloOp τ sig (Elt F))), Proc.devRef (τ := τ) .tc main_arg0 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem arg1_kept : ∀ op ∈ (ops : List (HloOp τ sig (Elt F))), Proc.devRef (τ := τ) .tc main_arg1 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem arg2_kept : ∀ op ∈ (ops : List (HloOp τ sig (Elt F))), Proc.devRef (τ := τ) .tc main_arg2 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem arg3_kept : ∀ op ∈ (ops : List (HloOp τ sig (Elt F))), Proc.devRef (τ := τ) .tc main_arg3 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem arg4_kept : ∀ op ∈ (ops : List (HloOp τ sig (Elt F))), Proc.devRef (τ := τ) .tc main_arg4 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem arg5_kept : ∀ op ∈ (ops : List (HloOp τ sig (Elt F))), Proc.devRef (τ := τ) .tc main_arg5 ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

/-- So every prefix of the line leaves an unwritten buffer as it found it. -/
theorem take_kept (k : Nat) (V : Valuation τ sig (Elt F)) (b : Ref sig .tc)
    (hb : ∀ op ∈ (ops : List (HloOp τ sig (Elt F))), Proc.devRef (τ := τ) .tc b ∉ op.writes) :
    after ((ops (F := F)).take k) V (Proc.devRef .tc b) = V (Proc.devRef .tc b) :=
  after_of_forall_not_mem _ _ fun op h => hb op (List.mem_of_mem_take h)

/-! ## The six stretches, each from any contents `V` -/

/-- Operation 1: the first matrix product of the two argument arrays. -/
theorem stage_lin1 (V : Valuation τ sig (Elt F)) :
    after ((ops (F := F)).take 1) V (Proc.devRef .tc main_v0) = lin1 (V (Proc.devRef .tc main_arg0)) (V (Proc.devRef .tc main_arg2)) := by
  simp only [ops, List.take_succ_cons, List.take_zero]
  after_results
  try rfl

/-- Operations 2 … 57: the edge lists, the degrees, the weights, and the neighbourhood sum of what the first product left. -/
theorem stage_sum8 (V : Valuation τ sig (Elt F)) :
    after (((ops (F := F)).take 57).drop 1) V (Proc.devRef .tc main_v43)
      = sum8 (V (Proc.devRef .tc main_v0)) (src (V (Proc.devRef .tc main_arg1))) (dst (V (Proc.devRef .tc main_arg1))) (weight (src (V (Proc.devRef .tc main_arg1))) (dst (V (Proc.devRef .tc main_arg1)))) := by
  simp only [ops, List.take_succ_cons, List.take_zero, List.drop_succ_cons, List.drop_zero]
  after_results_simp
  try rfl

/-- Operations 58 … 63: the bias and the rectifier. -/
theorem stage_act (V : Valuation τ sig (Elt F)) :
    after (((ops (F := F)).take 63).drop 57) V (Proc.devRef .tc main_v47) = act (V (Proc.devRef .tc main_v43)) (V (Proc.devRef .tc main_arg3)) := by
  simp only [ops, List.take_succ_cons, List.take_zero, List.drop_succ_cons, List.drop_zero]
  after_results
  simp only [TRef.toBuf, TRef.ofBuf, cast_eq]
  try rfl

/-- Operation 64: the second matrix product. -/
theorem stage_lin2 (V : Valuation τ sig (Elt F)) :
    after (((ops (F := F)).take 64).drop 63) V (Proc.devRef .tc main_v48) = lin2 (V (Proc.devRef .tc main_v47)) (V (Proc.devRef .tc main_arg4)) := by
  simp only [ops, List.take_succ_cons, List.take_zero, List.drop_succ_cons, List.drop_zero]
  after_results
  try rfl

/-- Operations 65 … 120: the edge lists, degrees and weights once more, and the second neighbourhood sum. -/
theorem stage_sum3 (V : Valuation τ sig (Elt F)) :
    after (((ops (F := F)).take 120).drop 64) V (Proc.devRef .tc main_v91)
      = sum3 (V (Proc.devRef .tc main_v48)) (src (V (Proc.devRef .tc main_arg1))) (dst (V (Proc.devRef .tc main_arg1))) (weight (src (V (Proc.devRef .tc main_arg1))) (dst (V (Proc.devRef .tc main_arg1)))) := by
  simp only [ops, List.take_succ_cons, List.take_zero, List.drop_succ_cons, List.drop_zero]
  after_results_simp
  try rfl

/-- Operations 121 … 138: the bias and the log-softmax. -/
theorem stage_lsm (V : Valuation τ sig (Elt F)) :
    after ((ops (F := F)).drop 120) V (Proc.devRef .tc main_v95) = lsm (logit (V (Proc.devRef .tc main_v91)) (V (Proc.devRef .tc main_arg5))) := by
  simp only [ops, List.drop_succ_cons, List.drop_zero]
  after_results
  simp only [TRef.toBuf, TRef.ofBuf, cast_eq]
  try rfl

/-! ## The whole line -/

/-- The result buffer after all 138 operations, from any contents `V`, is `value` of what `V` holds at the six arguments. -/
theorem value_eq (V : Valuation τ sig (Elt F)) :
    after (ops (F := F)) V (Proc.devRef .tc main_v95) = value (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_drop_split ops 120 V, stage_lsm, take_kept 120 V main_arg5 arg5_kept]
  rw [after_take_split ops 64 120 (by decide) V, stage_sum3, take_kept 64 V main_arg1 arg1_kept]
  rw [after_take_split ops 63 64 (by decide) V, stage_lin2, take_kept 63 V main_arg4 arg4_kept]
  rw [after_take_split ops 57 63 (by decide) V, stage_act, take_kept 57 V main_arg3 arg3_kept]
  rw [after_take_split ops 1 57 (by decide) V, stage_sum8, take_kept 1 V main_arg1 arg1_kept]
  rw [stage_lin1]
  rfl

/-- Every weakly fair execution of the reference terminates without a fault; the result array ends at `value` of the
    argument arrays as launched, and the argument arrays end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (value_eq _),
      (h c main_arg0).trans (after_of_forall_not_mem _ _ arg0_kept),
      (h c main_arg1).trans (after_of_forall_not_mem _ _ arg1_kept),
      (h c main_arg2).trans (after_of_forall_not_mem _ _ arg2_kept),
      (h c main_arg3).trans (after_of_forall_not_mem _ _ arg3_kept),
      (h c main_arg4).trans (after_of_forall_not_mem _ _ arg4_kept),
      (h c main_arg5).trans (after_of_forall_not_mem _ _ arg5_kept)⟩)
    (run_seq scopedRefs_eq scopedSems_eq defs main (fun _ => ops) main_eq (fun _ => ops_sub) m ρ)

end Cert.ReferenceIdeal.Stages

end
-- ==== Proof.RefSpec.lean ====
/-
  The reference's four dense pieces are the mathematics of the specification, index by index.

  The host spells a matrix product as a general dot with one contracted axis; at the extended reals its entry (r, j)
  is the sum over the contracted coordinate q of x (r, q) · w (q, j). It spells "add the bias to every row" by standing
  the bias vector up as a one-row matrix and copying that row down the rows, and a constant by copying a scalar
  everywhere. It takes a row's maximum by folding the maximum over the row's entries from a literal and then once more
  with the same literal, which changes nothing because a fold from a value never goes below it; it takes a row's sum
  from the zero literal, which adds nothing; it stands each row's result up as a column and copies it across the
  columns. Read at one index each step is one arithmetic step of the specification, so the four host functions are the
  four specified ones.
-/
import proofs.«169985_j32169305047308_1_alg».proof.Proof.RefStages
import proofs.«169985_j32169305047308_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefSpec

open Cert.ReferenceIdeal Cert.ReferenceIdeal.Gen Cert.ReferenceIdeal.Stages Cert.GcnSpec
open Idealize.ShloMosaic Idealize.ShloMosaic.ValueIdx

/-! ## The two matrix products -/

theorem lhs1_row (i : S200000x8.Idx) (q : dot_S200000x512_S512x8_S200000x8_1_0_0_1_n_n.contr.Idx) :
    (dot_S200000x512_S512x8_S200000x8_1_0_0_1_n_n.lhsIdx i q 0).val = (i 0).val := by
  unfold DotDims.lhsIdx
  rw [dif_neg (show ¬(0 : Fin S200000x512.rank) ∈ dot_S200000x512_S512x8_S200000x8_1_0_0_1_n_n.lhsBatch by decide),
    dif_pos (show (0 : Fin S200000x512.rank) ∈ dot_S200000x512_S512x8_S200000x8_1_0_0_1_n_n.lhsNonContracting by decide)]
  rfl

theorem rhs1_col (i : S200000x8.Idx) (q : dot_S200000x512_S512x8_S200000x8_1_0_0_1_n_n.contr.Idx) :
    (dot_S200000x512_S512x8_S200000x8_1_0_0_1_n_n.rhsIdx i q 1).val = (i 1).val := by
  unfold DotDims.rhsIdx
  rw [dif_neg (show ¬(1 : Fin S512x8.rank) ∈ dot_S200000x512_S512x8_S200000x8_1_0_0_1_n_n.rhsBatch by decide),
    dif_pos (show (1 : Fin S512x8.rank) ∈ dot_S200000x512_S512x8_S200000x8_1_0_0_1_n_n.rhsNonContracting by decide)]
  rfl

/-- Entry `i` of the host's first product: the sum over the 512 contracted coordinates of the left operand in `i`'s row
    times the right operand in `i`'s column. -/
theorem lin1_apply (x : (⟨S200000x512, .f32⟩ : BufTy).Contents (Elt Ideal)) (w : (⟨S512x8, .f32⟩ : BufTy).Contents (Elt Ideal))
    (i : S200000x8.Idx) :
    lin1 (F := Ideal) x w i
      = ∑ q : Fin 512, x (ix2 ⟨(i 0).val, (i 0).isLt⟩ q) * w (ix2 q ⟨(i 1).val, (i 1).isLt⟩) := by
  unfold lin1
  simp only [Host.dotGeneral]
  rw [Ideal.dotGeneral_apply,
    ← Equiv.sum_comp (contrEquiv1 dot_S200000x512_S512x8_S200000x8_1_0_0_1_n_n 512 rfl rfl).symm]
  refine Finset.sum_congr rfl fun k _ => ?_
  have hk := contrEquiv1_symm_val dot_S200000x512_S512x8_S200000x8_1_0_0_1_n_n 512 rfl rfl k
  have el : dot_S200000x512_S512x8_S200000x8_1_0_0_1_n_n.lhsIdx i
      ((contrEquiv1 dot_S200000x512_S512x8_S200000x8_1_0_0_1_n_n 512 rfl rfl).symm k)
      = ix2 ⟨(i 0).val, (i 0).isLt⟩ k := funext fun a => Fin.ext (by
    match a with
    | ⟨0, _⟩ => exact lhs1_row _ _
    | ⟨1, _⟩ => exact (dot_S200000x512_S512x8_S200000x8_1_0_0_1_n_n.lhsIdx_val_of_single rfl i _).trans hk)
  have er : dot_S200000x512_S512x8_S200000x8_1_0_0_1_n_n.rhsIdx i
      ((contrEquiv1 dot_S200000x512_S512x8_S200000x8_1_0_0_1_n_n 512 rfl rfl).symm k)
      = ix2 k ⟨(i 1).val, (i 1).isLt⟩ := funext fun a => Fin.ext (by
    match a with
    | ⟨0, _⟩ => exact (dot_S200000x512_S512x8_S200000x8_1_0_0_1_n_n.rhsIdx_val_of_single rfl i _).trans hk
    | ⟨1, _⟩ => exact rhs1_col _ _)
  show x _ * w _ = _
  rw [el, er]
  rfl

/-- The host's first product is the matrix product. -/
theorem lin1_eq (x : (⟨S200000x512, .f32⟩ : BufTy).Contents (Elt Ideal)) (w : (⟨S512x8, .f32⟩ : BufTy).Contents (Elt Ideal)) :
    lin1 (F := Ideal) x w = matProd (n := 200000) (k := 512) (p := 8) x w :=
  funext fun i => (lin1_apply x w i).trans rfl

theorem lhs2_row (i : S200000x3.Idx) (q : dot_S200000x8_S8x3_S200000x3_1_0_0_1_n_n.contr.Idx) :
    (dot_S200000x8_S8x3_S200000x3_1_0_0_1_n_n.lhsIdx i q 0).val = (i 0).val := by
  unfold DotDims.lhsIdx
  rw [dif_neg (show ¬(0 : Fin S200000x8.rank) ∈ dot_S200000x8_S8x3_S200000x3_1_0_0_1_n_n.lhsBatch by decide),
    dif_pos (show (0 : Fin S200000x8.rank) ∈ dot_S200000x8_S8x3_S200000x3_1_0_0_1_n_n.lhsNonContracting by decide)]
  rfl

theorem rhs2_col (i : S200000x3.Idx) (q : dot_S200000x8_S8x3_S200000x3_1_0_0_1_n_n.contr.Idx) :
    (dot_S200000x8_S8x3_S200000x3_1_0_0_1_n_n.rhsIdx i q 1).val = (i 1).val := by
  unfold DotDims.rhsIdx
  rw [dif_neg (show ¬(1 : Fin S8x3.rank) ∈ dot_S200000x8_S8x3_S200000x3_1_0_0_1_n_n.rhsBatch by decide),
    dif_pos (show (1 : Fin S8x3.rank) ∈ dot_S200000x8_S8x3_S200000x3_1_0_0_1_n_n.rhsNonContracting by decide)]
  rfl

/-- Entry `i` of the host's second product: the sum over the 8 contracted coordinates. -/
theorem lin2_apply (h : (⟨S200000x8, .f32⟩ : BufTy).Contents (Elt Ideal)) (w : (⟨S8x3, .f32⟩ : BufTy).Contents (Elt Ideal))
    (i : S200000x3.Idx) :
    lin2 (F := Ideal) h w i
      = ∑ q : Fin 8, h (ix2 ⟨(i 0).val, (i 0).isLt⟩ q) * w (ix2 q ⟨(i 1).val, (i 1).isLt⟩) := by
  unfold lin2
  simp only [Host.dotGeneral]
  rw [Ideal.dotGeneral_apply,
    ← Equiv.sum_comp (contrEquiv1 dot_S200000x8_S8x3_S200000x3_1_0_0_1_n_n 8 rfl rfl).symm]
  refine Finset.sum_congr rfl fun k _ => ?_
  have hk := contrEquiv1_symm_val dot_S200000x8_S8x3_S200000x3_1_0_0_1_n_n 8 rfl rfl k
  have el : dot_S200000x8_S8x3_S200000x3_1_0_0_1_n_n.lhsIdx i
      ((contrEquiv1 dot_S200000x8_S8x3_S200000x3_1_0_0_1_n_n 8 rfl rfl).symm k)
      = ix2 ⟨(i 0).val, (i 0).isLt⟩ k := funext fun a => Fin.ext (by
    match a with
    | ⟨0, _⟩ => exact lhs2_row _ _
    | ⟨1, _⟩ => exact (dot_S200000x8_S8x3_S200000x3_1_0_0_1_n_n.lhsIdx_val_of_single rfl i _).trans hk)
  have er : dot_S200000x8_S8x3_S200000x3_1_0_0_1_n_n.rhsIdx i
      ((contrEquiv1 dot_S200000x8_S8x3_S200000x3_1_0_0_1_n_n 8 rfl rfl).symm k)
      = ix2 k ⟨(i 1).val, (i 1).isLt⟩ := funext fun a => Fin.ext (by
    match a with
    | ⟨0, _⟩ => exact (dot_S200000x8_S8x3_S200000x3_1_0_0_1_n_n.rhsIdx_val_of_single rfl i _).trans hk
    | ⟨1, _⟩ => exact rhs2_col _ _)
  show h _ * w _ = _
  rw [el, er]
  rfl

/-- The host's second product is the matrix product. -/
theorem lin2_eq (h : (⟨S200000x8, .f32⟩ : BufTy).Contents (Elt Ideal)) (w : (⟨S8x3, .f32⟩ : BufTy).Contents (Elt Ideal)) :
    lin2 (F := Ideal) h w = matProd (n := 200000) (k := 8) (p := 3) h w :=
  funext fun i => (lin2_apply h w i).trans rfl

/-! ## The copies: a vector as a row, a row down the rows, a scalar everywhere, a vector as a column, a column across -/

/-- A vector of 8 entries stood up as a one-row matrix reads, at `j`, the vector at `j`'s column. -/
theorem vec_row8_apply {α : Type} (b : S8.Idx → α) (j : S1x8.Idx) :
    broadcastInDim S1x8 ![1] bcast_S8_S1x8_1 b j = b (ix1 ⟨(j 1).val, (j 1).isLt⟩) :=
  broadcastInDim_apply _ bcast_S8_S1x8_1 b j (ix1 ⟨(j 1).val, (j 1).isLt⟩) (fun a => match a with
    | ⟨0, _⟩ => by show (j 1).val = if (8 : Nat) = 1 then 0 else (j 1).val; rw [if_neg (by decide)])

/-- A one-row matrix of 8 columns copied down 200000 rows reads, at `i`, the row at `i`'s column. -/
theorem row_bcast8_apply {α : Type} (y : S1x8.Idx → α) (i : S200000x8.Idx) :
    broadcastInDim S200000x8 ![0, 1] bcast_S1x8_S200000x8_0_1 y i = y (ix2 (0 : Fin 1) ⟨(i 1).val, (i 1).isLt⟩) :=
  broadcastInDim_apply _ bcast_S1x8_S200000x8_0_1 y i (ix2 (0 : Fin 1) ⟨(i 1).val, (i 1).isLt⟩) (fun a => match a with
    | ⟨0, _⟩ => by show (0 : Nat) = if (1 : Nat) = 1 then 0 else (i 0).val; rw [if_pos rfl]
    | ⟨1, _⟩ => by show (i 1).val = if (8 : Nat) = 1 then 0 else (i 1).val; rw [if_neg (by decide)])

/-- A scalar copied over 200000 × 8 reads the scalar everywhere. -/
theorem splat8_apply {α : Type} (s : S_.Idx → α) (i : S200000x8.Idx) :
    broadcastInDim S200000x8 ![] bcast_S_S200000x8 s i = s ix0 :=
  broadcastInDim_apply _ bcast_S_S200000x8 s i ix0 (fun a => a.elim0)

/-- A vector of 3 entries stood up as a one-row matrix reads, at `j`, the vector at `j`'s column. -/
theorem vec_row3_apply {α : Type} (b : S3.Idx → α) (j : S1x3.Idx) :
    broadcastInDim S1x3 ![1] bcast_S3_S1x3_1 b j = b (ix1 ⟨(j 1).val, (j 1).isLt⟩) :=
  broadcastInDim_apply _ bcast_S3_S1x3_1 b j (ix1 ⟨(j 1).val, (j 1).isLt⟩) (fun a => match a with
    | ⟨0, _⟩ => by show (j 1).val = if (3 : Nat) = 1 then 0 else (j 1).val; rw [if_neg (by decide)])

/-- A one-row matrix of 3 columns copied down 200000 rows reads, at `i`, the row at `i`'s column. -/
theorem row_bcast3_apply {α : Type} (y : S1x3.Idx → α) (i : S200000x3.Idx) :
    broadcastInDim S200000x3 ![0, 1] bcast_S1x3_S200000x3_0_1 y i = y (ix2 (0 : Fin 1) ⟨(i 1).val, (i 1).isLt⟩) :=
  broadcastInDim_apply _ bcast_S1x3_S200000x3_0_1 y i (ix2 (0 : Fin 1) ⟨(i 1).val, (i 1).isLt⟩) (fun a => match a with
    | ⟨0, _⟩ => by show (0 : Nat) = if (1 : Nat) = 1 then 0 else (i 0).val; rw [if_pos rfl]
    | ⟨1, _⟩ => by show (i 1).val = if (3 : Nat) = 1 then 0 else (i 1).val; rw [if_neg (by decide)])

/-- A scalar copied over 200000 entries reads the scalar everywhere. -/
theorem splat1_apply {α : Type} (s : S_.Idx → α) (r : S200000.Idx) :
    broadcastInDim S200000 ![] bcast_S_S200000 s r = s ix0 :=
  broadcastInDim_apply _ bcast_S_S200000 s r ix0 (fun a => a.elim0)

/-- A vector of 200000 entries stood up as a column reads, at `j`, the vector at `j`'s row. -/
theorem vec_col_apply {α : Type} (v : S200000.Idx → α) (j : S200000x1.Idx) :
    broadcastInDim S200000x1 ![0] bcast_S200000_S200000x1_0 v j = v (ix1 ⟨(j 0).val, (j 0).isLt⟩) :=
  broadcastInDim_apply _ bcast_S200000_S200000x1_0 v j (ix1 ⟨(j 0).val, (j 0).isLt⟩) (fun a => match a with
    | ⟨0, _⟩ => by show (j 0).val = if (200000 : Nat) = 1 then 0 else (j 0).val; rw [if_neg (by decide)])

/-- A column of 200000 rows copied across 3 columns reads, at `i`, the column at `i`'s row. -/
theorem col_bcast_apply {α : Type} (w : S200000x1.Idx → α) (i : S200000x3.Idx) :
    broadcastInDim S200000x3 ![0, 1] bcast_S200000x1_S200000x3_0_1 w i = w (ix2 ⟨(i 0).val, (i 0).isLt⟩ (0 : Fin 1)) :=
  broadcastInDim_apply _ bcast_S200000x1_S200000x3_0_1 w i (ix2 ⟨(i 0).val, (i 0).isLt⟩ (0 : Fin 1)) (fun a => match a with
    | ⟨0, _⟩ => by show (i 0).val = if (200000 : Nat) = 1 then 0 else (i 0).val; rw [if_neg (by decide)]
    | ⟨1, _⟩ => by show (0 : Nat) = if (1 : Nat) = 1 then 0 else (i 1).val; rw [if_pos rfl])

/-! ## The bias and the rectifier -/

/-- The host's bias and rectifier are the specified ones, the bias vector read as a one-row matrix. -/
theorem act_eq (a : (⟨S200000x8, .f32⟩ : BufTy).Contents (Elt Ideal)) (b : (⟨S8, .f32⟩ : BufTy).Contents (Elt Ideal)) :
    act (F := Ideal) a b = biasRelu (n := 200000) (p := 8) (Ideal.ofBits .f32 0x00000000#32) a (rowOf b) := by
  funext i
  unfold act
  rw [maximumf_apply, addf_apply, row_bcast8_apply, vec_row8_apply, splat8_apply, constant_apply]
  rfl

/-! ## The log-softmax -/

/-- The host's logits are the specified ones. -/
theorem logit_eq (a : (⟨S200000x3, .f32⟩ : BufTy).Contents (Elt Ideal)) (b : (⟨S3, .f32⟩ : BufTy).Contents (Elt Ideal)) :
    logit (F := Ideal) a b = addRow (n := 200000) (p := 3) a (rowOf b) := by
  funext i
  unfold logit
  rw [addf_apply, row_bcast3_apply, vec_row3_apply]
  rfl

/-- Reducing along the columns, the index of row `r` with the column `k` put back is `(r, k)`. -/
theorem lift_eq (h : S200000x3.Reduces [1] S200000) (r : Fin 200000) (k : Fin 3) :
    h.lift (ix1 r) k = ix2 r k :=
  funext fun a => Fin.ext (by
    match a with
    | ⟨0, _⟩ => rfl
    | ⟨1, _⟩ => rfl)

/-- The host's row maximum at row `r`: the fold of the maximum over the row's 3 entries from the literal, and the extra
    maximum with the same literal changes nothing. -/
theorem rmax_apply (z : (⟨S200000x3, .f32⟩ : BufTy).Contents (Elt Ideal)) (r : Fin 200000) :
    rmax (F := Ideal) z (ix1 r) = rowMax (n := 200000) (p := 3) (Ideal.ofBits .f32 0xFF800000#32) z r := by
  unfold rmax
  rw [maximumf_apply, splat1_apply, constant_apply,
    Host.reduce_eq_fold_single (FloatOps.maximumf (F := Ideal) (φ := .f32)) z (constant (F := Ideal) S_ .f32 0xFF800000#32)
      reducesTo_S200000x3_S200000_d1 (by decide : S200000x3.Reduces [1] S200000) h_S_ (ix1 r)]
  refine Eq.trans ?_ (max_bot_rowMax (Ideal.ofBits .f32 0xFF800000#32) z r)
  refine congrArg (max (Ideal.ofBits .f32 0xFF800000#32)) ?_
  unfold rowMax
  show (Finset.univ : Finset (Fin 3)).fold max (Ideal.ofBits .f32 0xFF800000#32)
      (fun k => z ((by decide : S200000x3.Reduces [1] S200000).lift (ix1 r) k)) = _
  exact congrArg ((Finset.univ : Finset (Fin 3)).fold max (Ideal.ofBits .f32 0xFF800000#32))
    (funext fun k => congrArg z (lift_eq _ r k))

/-- The host's row sum at row `r`, from the zero literal: the sum of the row's 3 entries. -/
theorem rowsum_apply (y : (⟨S200000x3, .f32⟩ : BufTy).Contents (Elt Ideal)) (r : Fin 200000) :
    Host.reduceAdd (F := Ideal) y (constant (F := Ideal) S_ .f32 0x00000000#32) reducesTo_S200000x3_S200000_d1 h_S_ (ix1 r)
      = ∑ q : Fin 3, y (ix2 r q) := by
  simp only [Host.reduceAdd, Ideal.hostReduceAdd_def]
  rw [Ideal.hostReduceAdd_single reducesTo_S200000x3_S200000_d1 (by decide), constant_apply, Ideal.ofBits_zero_f32, zero_add]
  show ∑ k : Fin 3, y ((by decide : S200000x3.Reduces [1] S200000).lift (ix1 r) k) = _
  exact Finset.sum_congr rfl fun k _ => congrArg y (lift_eq _ r k)

/-- The host's logarithm of a vector, read at an index, is the logarithm of the entry. -/
theorem hostLog_apply {s : Shape} {φ : FTy} (x : FVec Ideal s φ) (j : s.Idx) : Host.log x j = Ideal.log (x j) := rfl

/-- The host's exponential of a vector, read at an index, is the exponential of the entry. -/
theorem hostExp_apply {s : Shape} {φ : FTy} (x : FVec Ideal s φ) (j : s.Idx) : Host.exp x j = Ideal.exp (x j) := rfl

/-- Entry `i` of the host's shifted logits: the entry less the maximum of its row. -/
theorem shift_apply (z : (⟨S200000x3, .f32⟩ : BufTy).Contents (Elt Ideal)) (i : S200000x3.Idx) :
    shift (F := Ideal) z i = shifted (n := 200000) (p := 3) (Ideal.ofBits .f32 0xFF800000#32) z i := by
  unfold shift shifted
  rw [subf_apply, col_bcast_apply, vec_col_apply, rmax_apply]
  rfl

/-- Entry `i` of the host's log-softmax of `z`: the shifted entry less the logarithm of the sum, over `i`'s row, of the
    exponentials of the shifted entries. -/
theorem lsm_apply (z : (⟨S200000x3, .f32⟩ : BufTy).Contents (Elt Ideal)) (i : S200000x3.Idx) :
    lsm (F := Ideal) z i
      = shifted (n := 200000) (p := 3) (Ideal.ofBits .f32 0xFF800000#32) z i
        - Ideal.log (rowSumExp (n := 200000) (p := 3) (Ideal.ofBits .f32 0xFF800000#32) z (i 0)) := by
  unfold lsm
  rw [subf_apply, col_bcast_apply, hostLog_apply, vec_col_apply, rowsum_apply, shift_apply]
  unfold rowSumExp
  refine congrArg (fun s => shifted (n := 200000) (p := 3) (Ideal.ofBits .f32 0xFF800000#32) z i - Ideal.log s)
    (Finset.sum_congr rfl fun q _ => ?_)
  rw [hostExp_apply, shift_apply]
  rfl

/-- The host's log-softmax of its logits is the specified one, the bias vector read as a one-row matrix. -/
theorem lsm_eq (a : (⟨S200000x3, .f32⟩ : BufTy).Contents (Elt Ideal)) (b : (⟨S3, .f32⟩ : BufTy).Contents (Elt Ideal)) :
    lsm (F := Ideal) (logit a b) = logSoftmax (n := 200000) (p := 3) (Ideal.ofBits .f32 0xFF800000#32) a (rowOf b) := by
  funext i
  rw [logit_eq, lsm_apply]
  rfl

end Cert.ReferenceIdeal.RefSpec

end
-- ==== Proof.Bridge.lean ====
/-
  The two programs compute one function.

  The reference's result is `Stages.value` of its arguments: log-softmax ∘ (+ bias) ∘ neighbourhood sum ∘ (· W2) ∘
  rectifier ∘ (+ bias) ∘ neighbourhood sum ∘ (· W1), each dense piece spelt with host operations. The idealized
  kernel's result is `Value.result`: the same composition with each dense piece stated index by index over the
  extended reals. The neighbourhood sums are literally the same terms on both sides, so the two agree as soon as the
  four dense pieces do — which is what the reference-side identifications say: a host matrix product is the sum over
  the contracted coordinate; bias-and-rectifier and bias-and-log-softmax are the stated pointwise and row-wise
  formulas (the reference's second maximum with the literal the row maxima start from changes nothing).
-/
import proofs.«169985_j32169305047308_1_alg».proof.Proof.KernelValue
import proofs.«169985_j32169305047308_1_alg».proof.Proof.RefStages
import proofs.«169985_j32169305047308_1_alg».proof.Proof.RefSpec

set_option maxRecDepth 16384

noncomputable section

namespace Cert.GcnBridge

open Idealize.ShloMosaic Idealize.ShloMosaic.TcCoe Idealize.SL.Sem
open Cert.GcnSpec Cert.GcnChain

/-- The reference's term of the kernel program's launched arguments is the kernel's result. -/
theorem value_eq_result (m : (ℓ : Loc Cert.KernelIdeal.nD Cert.KernelIdeal.τ Cert.KernelIdeal.sig) → Buf (Elt Ideal) ℓ)
    (c : Dev Cert.KernelIdeal.nD) :
    Cert.ReferenceIdeal.Stages.value (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
        (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))
      = Cert.KernelIdeal.Value.result m c := by
  unfold Cert.ReferenceIdeal.Stages.value
  rw [Cert.ReferenceIdeal.RefSpec.lsm_eq, Cert.ReferenceIdeal.RefSpec.lin2_eq, Cert.ReferenceIdeal.RefSpec.act_eq,
    Cert.ReferenceIdeal.RefSpec.lin1_eq]
  rfl

end Cert.GcnBridge

end
-- ==== Proof.lean ====
/-
  A two-layer graph convolution, kernel against reference, over the extended reals.

  Both programs compute, from node features x, an edge list, two weight matrices and two biases,
      log_softmax (S (relu (S (x · W1) + b1) · W2) + b2),
  where S is the symmetric-normalised neighbourhood sum over the edges with a self loop at every node (gather rows by
  source, scale by the product of the endpoints' inverse square-root degrees, scatter-add by target). The reference
  does everything with host operations. The kernel program keeps S as the same host operations and computes the four
  dense pieces — the two matrix products, bias-and-rectifier, bias-and-row-wise-log-softmax — in four regions that tile
  the 200000 rows; narrowing to bf16 before the products is the identity at the extended reals.

  The frames of the two kernel programs are the generated ones. The reference's run is read stage by stage
  (Proof/RefStages.lean), the idealized kernel's through the generated fold of its nine segments with the four regions'
  whole-array values (Proof/Region0 … Region3, Proof/KernelValue.lean). The two results are one term: the neighbourhood
  sums are shared verbatim (Proof/Chain.lean) and the dense pieces agree index by index (Proof/Spec.lean,
  Proof/RefSpec.lean, Proof/Bridge.lean). No step uses that the inputs are finite: every law used — commutativity and
  associativity of sums and maxima, and that a maximum folded from a value is at least that value — holds on all
  extended reals. The idealization rewrote no operation, so there is nothing to preserve.
-/
import proofs.«169985_j32169305047308_1_alg».proof.Defs
import proofs.«169985_j32169305047308_1_alg».proof.Proof.Gen.Kernel
import proofs.«169985_j32169305047308_1_alg».proof.Proof.Gen.Kernel.Frame
import proofs.«169985_j32169305047308_1_alg».proof.Proof.Gen.KernelIdeal
import proofs.«169985_j32169305047308_1_alg».proof.Proof.Gen.KernelIdeal.Frame
import proofs.«169985_j32169305047308_1_alg».proof.Proof.Gen.ReferenceIdeal
import proofs.«169985_j32169305047308_1_alg».proof.Proof.Gen.Pre_finite_inputs
import proofs.«169985_j32169305047308_1_alg».proof.Proof.KernelRun
import proofs.«169985_j32169305047308_1_alg».proof.Proof.KernelValue
import proofs.«169985_j32169305047308_1_alg».proof.Proof.RefStages
import proofs.«169985_j32169305047308_1_alg».proof.Proof.Bridge

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference terminates with its arguments unchanged: its staged run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Stages.run (F := Ideal) m ρ)

/-- From memories that agree on the six arguments both idealized programs run, and both leave in the result array the
    one function `Value.result` of the kernel program's launched arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Value.result m c, ?_, ?_⟩
  · exact (θ_run Cert.KernelIdeal.defs _ _).mono
      (fun r h c => ⟨(h c).1.trans (Cert.KernelIdeal.Value.L9_result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2]
    exact Cert.GcnBridge.value_eq_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
